-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x4096x32 : Shape := ⟨3, ![8, 4096, 32]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x4096x32 : S_.BroadcastsInDim S8x4096x32 (![] : Fin 0 → Fin S8x4096x32.rank)
  reducesTo_S8x4096x32_S_d0_1_2 : S8x4096x32.ReducesTo [0, 1, 2] S_

variable [Facts]

def fn_part1 {F : FTy → Type} [FloatOps F] (main_v13 : IVec S_ 1) (main_v16 : IVec S8x4096x32 1) : IVec S_ 1 :=
  let main_c_5 : IVec S_ 1 := constantI S_ 1 1#1
  let main_v17 : IVec S_ 1 := (fun x v => Host.reduce IntOp.andi x v reducesTo_S8x4096x32_S_d0_1_2 h_S_) main_v16 main_c_5
  let main_v18 : IVec S_ 1 := andi main_v13 main_v17
  main_v18

def fn {F : FTy → Type} [FloatOps F] (main_arg0 : FVec F S8x4096x3 .f32) (main_arg1 : FVec F S8x4096x3 .f32) (main_arg2 : FVec F S8x4096x32 .f32) (main_arg3 : FVec F S8x4096x32 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x4096x32 .f32 := Host.absf main_arg2
  let main_cst_2 : FVec F S_ .f32 := constant S_ .f32 0x7F800000#32
  let main_v10 : FVec F S8x4096x32 .f32 := broadcastInDim S8x4096x32 ![] bcast_S_S8x4096x32 main_cst_2
  let main_v11 : IVec S8x4096x32 1 := cmpf .olt main_v9 main_v10
  let main_c_3 : IVec S_ 1 := constantI S_ 1 1#1
  let main_v12 : IVec S_ 1 := (fun x v => Host.reduce IntOp.andi x v reducesTo_S8x4096x32_S_d0_1_2 h_S_) main_v11 main_c_3
  let main_v13 : IVec S_ 1 := andi main_v8 main_v12
  let main_v14 : FVec F S8x4096x32 .f32 := Host.absf main_arg3
  let main_cst_4 : FVec F S_ .f32 := constant S_ .f32 0x7F800000#32
  let main_v15 : FVec F S8x4096x32 .f32 := broadcastInDim S8x4096x32 ![] bcast_S_S8x4096x32 main_cst_4
  let main_v16 : IVec S8x4096x32 1 := cmpf .olt main_v14 main_v15
  fn_part1 (F := F) main_v13 main_v16
-- ==== Kernel.lean ====
abbrev S8x4096x3 : Shape := ⟨3, ![8, 4096, 3]⟩
abbrev S8x4096x32 : Shape := ⟨3, ![8, 4096, 32]⟩
abbrev S8x3x4096 : Shape := ⟨3, ![8, 3, 4096]⟩
abbrev S8x4096x1 : Shape := ⟨3, ![8, 4096, 1]⟩
abbrev S8x1x4096 : Shape := ⟨3, ![8, 1, 4096]⟩
abbrev S1x4096x3 : Shape := ⟨3, ![1, 4096, 3]⟩
abbrev S1x3x512 : Shape := ⟨3, ![1, 3, 512]⟩
abbrev S1x4096x1 : Shape := ⟨3, ![1, 4096, 1]⟩
abbrev S1x1x512 : Shape := ⟨3, ![1, 1, 512]⟩
abbrev S4096x3 : Shape := ⟨2, ![4096, 3]⟩
abbrev S3x512 : Shape := ⟨2, ![3, 512]⟩
abbrev S4096x1 : Shape := ⟨2, ![4096, 1]⟩
abbrev S1x512 : Shape := ⟨2, ![1, 512]⟩
abbrev S4096x512 : Shape := ⟨2, ![4096, 512]⟩
abbrev S4096 : Shape := ⟨1, ![4096]⟩
abbrev S512 : Shape := ⟨1, ![512]⟩
abbrev S_ : Shape := ⟨0, ![]⟩
abbrev S8x1x1 : Shape := ⟨3, ![8, 1, 1]⟩
abbrev S1x4096x32 : Shape := ⟨3, ![1, 4096, 32]⟩
abbrev S1x1x1 : Shape := ⟨3, ![1, 1, 1]⟩
abbrev S4096x32 : Shape := ⟨2, ![4096, 32]⟩
abbrev S1 : Shape := ⟨1, ![1]⟩
abbrev S1x1 : Shape := ⟨2, ![1, 1]⟩

abbrev nBuf : Space → Nat
  | .hbm => 36
  | .vmem => 14
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x32, .f32⟩
  | .hbm, ⟨3, _⟩ => ⟨S8x4096x32, .f32⟩
  | .hbm, ⟨4, _⟩ => ⟨S8x3x4096, .f32⟩
  | .hbm, ⟨5, _⟩ => ⟨S8x4096x1, .f32⟩
  | .hbm, ⟨6, _⟩ => ⟨S8x1x4096, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x1x4096, .f32⟩
  | .hbm, ⟨13, _⟩ => ⟨S8x1x4096, .f32⟩
  | .hbm, ⟨14, _⟩ => ⟨S8x1x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x1x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x3x512, .f32⟩
  | .local _ .vmem, ⟨3, _⟩ => ⟨S1x3x512, .f32⟩
  | .local _ .vmem, ⟨4, _⟩ => ⟨S1x4096x1, .f32⟩
  | .local _ .vmem, ⟨5, _⟩ => ⟨S1x4096x1, .f32⟩
  | .local _ .vmem, ⟨6, _⟩ => ⟨S1x1x512, .f32⟩
  | .local _ .vmem, ⟨7, _⟩ => ⟨S1x1x512, .f32⟩
  | .local _ .vmem, ⟨8, _⟩ => ⟨S1x4096x32, .f32⟩
  | .local _ .vmem, ⟨9, _⟩ => ⟨S1x4096x32, .f32⟩
  | .local _ .vmem, ⟨10, _⟩ => ⟨S1x4096x32, .f32⟩
  | .local _ .vmem, ⟨11, _⟩ => ⟨S1x4096x32, .f32⟩
  | .local _ .vmem, ⟨12, _⟩ => ⟨S1x1x1, .f32⟩
  | .local _ .vmem, ⟨13, _⟩ => ⟨S1x1x1, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_cst_6 : Ref sig .tc := ⟨.hbm, 27, rfl⟩
abbrev main_v15 : Ref sig .tc := ⟨.hbm, 28, rfl⟩
abbrev main_cst_7 : Ref sig .tc := ⟨.hbm, 29, rfl⟩
abbrev main_v16 : Ref sig .tc := ⟨.hbm, 30, rfl⟩
abbrev main_cst_8 : Ref sig .tc := ⟨.hbm, 31, rfl⟩
abbrev main_v17 : Ref sig .tc := ⟨.hbm, 32, rfl⟩
abbrev main_cst_9 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v26 : BitVec 1 := Scalar.cmpi .eq arg1 c0_i32
  let v27 : BitVec 32 := Scalar.extui v26
  let c0_i32_5 : BitVec 32 := 0#32
  let v28 : BitVec 1 := Scalar.cmpi .ne v27 c0_i32_5
  v28

def k0_cond2 (i : grid0.Coords) : BitVec 1 :=
  let arg1 : BitVec 32 := BitVec.ofNat 32 (i 1).val
  let c0_i32_6 : BitVec 32 := 0#32
  let v29 : BitVec 1 := Scalar.cmpi .ne arg1 c0_i32_6
  let v30 : BitVec 32 := Scalar.extui v29
  let c0_i32_7 : BitVec 32 := 0#32
  let v31 : BitVec 1 := Scalar.cmpi .ne v30 c0_i32_7
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S8x4096x3_S8x3x4096_0_2_1 : S8x4096x3.Transposes [0, 2, 1] S8x3x4096
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  slices_S4096x3_o0_0_S4096x1 : S4096x3.Slices ![0, 0] S4096x1
  slices_S3x512_o0_0_S1x512 : S3x512.Slices ![0, 0] S1x512
  broadcasts_S4096x1_S4096x512 : S4096x1.Broadcasts S4096x512
  broadcasts_S1x512_S4096x512 : S1x512.Broadcasts S4096x512
  slices_S4096x3_o0_1_S4096x1 : S4096x3.Slices ![0, 1] S4096x1
  slices_S3x512_o1_0_S1x512 : S3x512.Slices ![1, 0] S1x512
  slices_S4096x3_o0_2_S4096x1 : S4096x3.Slices ![0, 2] S4096x1
  slices_S3x512_o2_0_S1x512 : S3x512.Slices ![2, 0] S1x512
  reduces_S4096x512_S4096 : S4096x512.Reduces [1] S4096
  shapeCasts_S4096_S4096x1 : S4096.ShapeCasts S4096x1
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  shapeCasts_S4096x1_S1x4096x1 : S4096x1.ShapeCasts S1x4096x1
  reduces_S4096x512_S512 : S4096x512.Reduces [0] S512
  shapeCasts_S512_S1x512 : S512.ShapeCasts S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  bcast_S_S8x4096x1 : S_.BroadcastsInDim S8x4096x1 (![] : Fin 0 → Fin S8x4096x1.rank)
  bcast_S_S8x1x4096 : S_.BroadcastsInDim S8x1x4096 (![] : Fin 0 → Fin S8x1x4096.rank)
  reducesTo_S8x4096x1_S_d0_1_2 : S8x4096x1.ReducesTo [0, 1, 2] S_
  h_S_ : 0 < S_.numel
  reducesTo_S8x1x4096_S_d0_1_2 : S8x1x4096.ReducesTo [0, 1, 2] S_
  inb_S1x4096x32_S1x4096x32_0_0_0 : ∀ a, (![0, 0, 0] : Fin 3 → Nat) a + S1x4096x32.size a ≤ S1x4096x32.size a
  h_S1x4096x32 : 0 < S1x4096x32.numel
  shapeCasts_S1x4096x32_S4096x32 : S1x4096x32.ShapeCasts S4096x32
  reduces_S4096x32_S4096 : S4096x32.Reduces [1] S4096
  broadcasts_S4096x1_S4096x32 : S4096x1.Broadcasts S4096x32
  reduces_S4096x1_S1 : S4096x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S8x1x1_S_d0_1_2 : S8x1x1.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S8x4096x3.size a
  hwx0_0 : ∀ i : grid0.Coords, EltTy.bits .f32 = 32 ∨ (Rect.block (s := S8x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512.size a ≤ S8x3x4096.size a
  hwx0_1 : ∀ i : grid0.Coords, EltTy.bits .f32 = 32 ∨ (Rect.block (s := S8x3x4096) S1x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x1.size a ≤ S8x4096x1.size a
  hwx0_2 : ∀ i : grid0.Coords, EltTy.bits .f32 = 32 ∨ (Rect.block (s := S8x4096x1) S1x4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S8x1x4096.size a
  hwx0_3 : ∀ i : grid0.Coords, EltTy.bits .f32 = 32 ∨ (Rect.block (s := S8x1x4096) S1x1x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x32.size a ≤ S8x4096x32.size a
  hwx1_0 : ∀ i : grid1.Coords, EltTy.bits .f32 = 32 ∨ (Rect.block (s := S8x4096x32) S1x4096x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x32.size a ≤ S8x4096x32.size a
  hwx1_1 : ∀ i : grid1.Coords, EltTy.bits .f32 = 32 ∨ (Rect.block (s := S8x4096x32) S1x4096x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1.size a ≤ S8x1x1.size a
  hwx1_2 : ∀ i : grid1.Coords, EltTy.bits .f32 = 32 ∨ (Rect.block (s := S8x1x1) S1x1x1.size (cc1_transform_2 i) (hinb1_2 i)).WholeWords (EltTy.packing .f32)

variable [Facts₀]

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x4096x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond1 i == 1#1) && !(k0_cond2 i == 1#1) | 3 => fun _ => false | ⟨_ + 4, h⟩ => absurd h (Nat.not_lt.2 (Nat.le_add_left _ _))

abbrev win1_0 : Pipeline.Window sig grid1 :=
  Pipeline.Window.ofSpec (Memref.whole main_arg2) S1x4096x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1x4096x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x4096x3 : Shape := ⟨3, ![8, 4096, 3]⟩
abbrev S8x4096x32 : Shape := ⟨3, ![8, 4096, 32]⟩
abbrev S_ : Shape := ⟨0, ![]⟩
abbrev S8x4096 : Shape := ⟨2, ![8, 4096]⟩
abbrev S8x4096x1 : Shape := ⟨3, ![8, 4096, 1]⟩
abbrev S8x4096x4096 : Shape := ⟨3, ![8, 4096, 4096]⟩
abbrev S8x1x4096 : Shape := ⟨3, ![8, 1, 4096]⟩

abbrev nBuf : Space → Nat
  | .hbm => 72
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x32, .f32⟩
  | .hbm, ⟨3, _⟩ => ⟨S8x4096x32, .f32⟩
  | .hbm, ⟨4, _⟩ => ⟨S8x4096x3, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S8x4096x3, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S8x4096x4096, .f32⟩
  | .hbm, ⟨13, _⟩ => ⟨S8x1x4096, .f32⟩
  | .hbm, ⟨14, _⟩ => ⟨S8x4096x4096, .f32⟩
  | .hbm, ⟨15, _⟩ => ⟨S8x4096x4096, .f32⟩
  | .hbm, ⟨16, _⟩ => ⟨S8x4096x4096, .f32⟩
  | .hbm, ⟨17, _⟩ => ⟨S_, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8x4096x32, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x32, .f32⟩
  | .hbm, ⟨47, _⟩ => ⟨S8x4096x32, .f32⟩
  | .hbm, ⟨48, _⟩ => ⟨S8x4096x32, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x4096x32, .f32⟩
  | .hbm, ⟨57, _⟩ => ⟨S8x4096x32, .f32⟩
  | .hbm, ⟨58, _⟩ => ⟨S8x4096x32, .f32⟩
  | .hbm, ⟨59, _⟩ => ⟨S_, .f32⟩
  | .hbm, ⟨60, _⟩ => ⟨S8x4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_call0_v2 : Ref sig .tc := ⟨.hbm, 41, rfl⟩
abbrev main_v24 : Ref sig .tc := ⟨.hbm, 42, rfl⟩
abbrev main_cst_9 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_call1_v2 : Ref sig .tc := ⟨.hbm, 51, rfl⟩
abbrev main_v29 : Ref sig .tc := ⟨.hbm, 52, rfl⟩
abbrev main_cst_10 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_11 : Ref sig .tc := ⟨.hbm, 59, rfl⟩
abbrev main_v35 : Ref sig .tc := ⟨.hbm, 60, rfl⟩
abbrev main_cst_12 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_cst_14 : Ref sig .tc := ⟨.hbm, 65, rfl⟩
abbrev main_v38 : Ref sig .tc := ⟨.hbm, 66, rfl⟩
abbrev main_cst_15 : Ref sig .tc := ⟨.hbm, 67, rfl⟩
abbrev main_v39 : Ref sig .tc := ⟨.hbm, 68, rfl⟩
abbrev main_cst_16 : Ref sig .tc := ⟨.hbm, 69, rfl⟩
abbrev main_v40 : Ref sig .tc := ⟨.hbm, 70, rfl⟩
abbrev main_v41 : Ref sig .tc := ⟨.hbm, 71, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  transposes_S8x4096x1_S8x1x4096_0_2_1 : S8x4096x1.Transposes [0, 2, 1] S8x1x4096
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  reducesTo_S8x4096x32_S8x4096_d2 : S8x4096x32.ReducesTo [2] S8x4096
  bcast_S_S8x4096x1 : S_.BroadcastsInDim S8x4096x1 (![] : Fin 0 → Fin S8x4096x1.rank)
  bcast_S8x4096x1_S8x4096x32_0_1_2 : S8x4096x1.BroadcastsInDim S8x4096x32 (![0, 1, 2] : Fin 3 → Fin S8x4096x32.rank)
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.BitsCosine.lean ====
/-
  The second kernel region: per cloud, the mean over its 4096 rows of the cosine of two feature rows.

  The region's grid has one point per cloud. At a point the body reads the two 4096 × 32 blocks of the cloud whole,
  and writes its one-entry output block whole, once: the entry is a pure function of the two blocks read. So whatever
  the output's staging buffer held before, after the body it holds that function of the two input blocks, and the two
  input buffers are as they were. This module states that, at any float instance, for buffer contents `V` found when
  the region is entered, and derives the obligation the pipeline asks of the body at every point.
-/
import proofs.«103882_j3006477107870_2_alg».proof.Proof.Gen.Kernel.Launch
import proofs.«103882_j3006477107870_2_alg».proof.Proof.Gen.Kernel.Skeleton
import proofs.«103882_j3006477107870_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Cosine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

-- the buffer contents on every core when the region is entered
variable (V : (c : Dev nD) → (b : Ref sig .tc) → Buf (Elt F) ((c : Thread nD τ).loc b))

/-- The block of window `w` at the cloud `t`, cut out of the window's array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first feature array's staging buffer holds the cloud's block whenever the body runs, for any proof data over
    the entry contents whose body leaves that block in place. -/
theorem before_f_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the second feature array. -/
theorem before_g_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The whole 4096 × 32 block of a cloud, as a rectangle of its staging buffer. -/
abbrev rowsRect : Rect S1x4096x32 := Rect.unit (s := S1x4096x32) ![0, 0, 0] S1x4096x32.size inb_S1x4096x32_S1x4096x32_0_0_0
/-- The one-entry output block, as a rectangle of its staging buffer. -/
abbrev meanRect : Rect S1x1x1 := Rect.unit (s := S1x1x1) ![0, 0, 0] S1x1x1.size inb_S1x1x1_S1x1x1_0_0_0

/-- What the body leaves in the output's staging buffer: its single store, of the mean cosine of the two blocks read. -/
def meanOf (f g : Vec F S1x4096x32 .f32) : Vec F S1x1x1 .f32 :=
  View.canon [⟨meanRect, k1_pay1 (View.ld f rowsRect) (View.ld g rowsRect)⟩]

/-- The single store covers the one-entry block. -/
theorem mean_cover (p : Vec F S1x1x1 .f32) (y : S1x1x1.Idx) :
    ∃ pc ∈ ([⟨meanRect, p⟩] : List (View.Piece (Elt F) S1x1x1 .f32)), y ∈ pc.1.set :=
  View.cover_of_tiled [⟨meanRect, p⟩] S1x1x1.size (by rfl) y

set_option maxHeartbeats 1000000 in
/-- The body, on whole staging buffers holding `f` and `g` and an output buffer holding anything, runs to its end
    with the inputs as they were and the output at `meanOf f g`. -/
theorem body_run (c : Dev nD) (E : Set ℕ) (i : grid1.Coords) (arg1 : Memref sig .tc .vmem S1x4096x32 .f32) (harg1 : arg1.IsWhole)
    (arg2 : Memref sig .tc .vmem S1x4096x32 .f32) (harg2 : arg2.IsWhole) (arg3 : Memref sig .tc .vmem S1x1x1 .f32) (harg3 : arg3.IsWhole)
    (f g : Vec F S1x4096x32 .f32) (K : PUnit → sProp 𝕄) :
    iprop(owns (c : Thread nD τ) arg1 fullShare f ∗ owns (c : Thread nD τ) arg2 fullShare g ∗ (∃ d, owns (c : Thread nD τ) arg3 fullShare d)
        ∗ (iprop(owns (c : Thread nD τ) arg1 fullShare f ∗ owns (c : Thread nD τ) arg2 fullShare g ∗ owns (c : Thread nD τ) arg3 fullShare (meanOf f g)) -∗ K ⟨⟩))
      ⊢ wp frame (wpE (defs₀ (F := F)) Variants.none c none) E (cc1__cosine_kernel i arg1 harg1 arg2 harg2 arg3 harg3) K := by
  simp only [cc1__cosine_kernel_eq_skeleton]; unfold cc1__cosine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (mean_cover _)

/-- The proof data of the region on core `c`: the arrays as the region finds them; after the body at cloud `t` each
    input buffer at its block and the output buffer at the mean cosine of the two blocks; nothing owed, full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => meanOf (blockAt V c 0 t) (blockAt V c 1 t)
  Φ _ := Pipeline.ΦA spec1 c
  q _ := fullShare
  owed _ := 0

theorem dat_A (c : Dev nD) (w : Fin cfg1.W) : (dat V c).A w = V c (Pipeline.arrRef spec1 w) := by
  dsimp only [dat]

theorem after_f (c : Dev nD) (t : Fin cfg1.N) : (dat V c).after 0 t = blockAt V c 0 t := by dsimp only [dat]
theorem after_g (c : Dev nD) (t : Fin cfg1.N) : (dat V c).after 1 t = blockAt V c 1 t := by dsimp only [dat]
theorem after_mean (c : Dev nD) (t : Fin cfg1.N) : (dat V c).after 2 t = meanOf (blockAt V c 0 t) (blockAt V c 1 t) := by dsimp only [dat]

theorem before_f (c : Dev nD) (t : Fin cfg1.N) (d) : (dat V c).before 0 t d = blockAt V c 0 t :=
  before_f_of V (dat V c) (dat_A V c 0) (after_f V c) t d
theorem before_g (c : Dev nD) (t : Fin cfg1.N) (d) : (dat V c).before 1 t d = blockAt V c 1 t :=
  before_g_of V (dat V c) (dat_A V c 1) (after_g V c) t d

/-- What the body is called with at cloud `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any cloud: the input buffers hold their blocks, so `body_run` applies; the rest passes through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_f, before_g]
  rw [show (dat V c).Φ t.succ = (dat V c).Φ t.castSucc from rfl,
    show (dat V c).owesAt () t.succ = (dat V c).owesAt () t.castSucc from rfl,
    after_f, after_g, after_mean]
  iintro ⟨HΦ, Ho, ⟨%d0, H0⟩, ⟨%d1, H1⟩, ⟨%d2, H2⟩⟩
  iapply (body_run c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every cloud. -/
theorem body_obligation (c : Dev nD) : BodyObligation (dat (F := F) V c) (defs₀ (F := F)) Variants.none () Set.univ := fun t => by
  rw [bigSep_W1, bigSep_W1]
  exact sound_body V c t

end Cert.Kernel.Cosine

end
-- ==== Proof.BitsChamfer.lean ====
/-
  The first kernel region: squared distances between the points of two clouds, minimised in both directions.

  The grid is 8 clouds × 8 key tiles of 512 points, the key tile moving fastest. At a point (cloud `b`, tile `k`) the body
  reads the cloud's 4096 query points (block `x`, 4096 × 3) and the tile's 512 key points, transposed (block `y`, 3 × 512),
  and forms the 4096 × 512 squared distances. It writes two outputs, each by one store of its whole block:
  * per key point, the minimum over the 4096 query points (a 1 × 512 block, one per grid point, written back every time);
  * per query point, the minimum over the tile's key points — a 4096 × 1 block shared by the 8 tiles of a cloud and
    written back only after the last of them. On a cloud's first tile (`k = 0`) the body stores the tile's minimum;
    on a later tile (`k ≠ 0`) it stores the minimum of what the buffer holds — the running minimum the tile before
    left — and the tile's. The two branches are exclusive and exhaustive: `k = 0` or `k ≠ 0`.
  So the running minimum is defined by recursion on the grid position (`nearAt`), and the body's triple is proved
  once per branch. Everything here is at any float instance and for buffer contents `V` found at the region's entry.
-/
import proofs.«103882_j3006477107870_2_alg».proof.Proof.Gen.Kernel.Launch
import proofs.«103882_j3006477107870_2_alg».proof.Proof.Gen.Kernel.Skeleton
import proofs.«103882_j3006477107870_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The two branches, over the grid -/

/-- The first branch is taken exactly on a cloud's first key tile: the positions divisible by 8. -/
theorem first_tile_iff : ∀ t : Fin cfg0.N, k0_cond1 (grid0.coords t) = 1#1 ↔ t.val % 8 = 0 :=
  (by decide +kernel : ∀ t : Fin grid0.N, k0_cond1 (grid0.coords t) = 1#1 ↔ t.val % 8 = 0)
/-- The second branch is taken exactly on the other tiles. -/
theorem later_tile_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)
/-- One of the two branches stores the per-query block at every point: the window is never idle. -/
theorem near_live : ∀ i : grid0.Coords, cfg0.idle 2 i = false :=
  (by decide +kernel : ∀ i : grid0.Coords, idle0 2 i = false)

/-- The same at a grid position, in the spelling the pipeline's obligation uses. -/
theorem near_live_at (t : Fin cfg0.N) : idle0 2 (grid0.coords t) = false := near_live _

/-! ## The blocks' rectangles and what the body stores -/

abbrev xRect : Rect S1x4096x3 := Rect.unit (s := S1x4096x3) ![0, 0, 0] S1x4096x3.size inb_S1x4096x3_S1x4096x3_0_0_0
abbrev yRect : Rect S1x3x512 := Rect.unit (s := S1x3x512) ![0, 0, 0] S1x3x512.size inb_S1x3x512_S1x3x512_0_0_0
abbrev nearRect : Rect S1x4096x1 := Rect.unit (s := S1x4096x1) ![0, 0, 0] S1x4096x1.size inb_S1x4096x1_S1x4096x1_0_0_0
abbrev colRect : Rect S1x1x512 := Rect.unit (s := S1x1x512) ![0, 0, 0] S1x1x512.size inb_S1x1x512_S1x1x512_0_0_0

/-- The per-query block after a cloud's first tile: the tile's minimum over its key points. -/
def nearFirst (x : Vec F S1x4096x3 .f32) (y : Vec F S1x3x512 .f32) : Vec F S1x4096x1 .f32 :=
  View.canon [⟨nearRect, k0_pay3 (View.ld x xRect) (View.ld y yRect)⟩]
/-- The per-query block after a later tile: the minimum of what it held (`prev`) and the tile's. -/
def nearLater (x : Vec F S1x4096x3 .f32) (y : Vec F S1x3x512 .f32) (prev : Vec F S1x4096x1 .f32) : Vec F S1x4096x1 .f32 :=
  View.canon [⟨nearRect, k0_pay4 (View.ld x xRect) (View.ld y yRect) (View.ld prev nearRect)⟩]
/-- The per-key block after any tile: the minimum over the cloud's query points. -/
def colMin (x : Vec F S1x4096x3 .f32) (y : Vec F S1x3x512 .f32) : Vec F S1x1x512 .f32 :=
  View.canon [⟨colRect, k0_pay5 (View.ld x xRect) (View.ld y yRect)⟩]

theorem near_cover (p : Vec F S1x4096x1 .f32) (j : S1x4096x1.Idx) :
    ∃ pc ∈ ([⟨nearRect, p⟩] : List (View.Piece (Elt F) S1x4096x1 .f32)), j ∈ pc.1.set :=
  View.cover_of_tiled [⟨nearRect, p⟩] S1x4096x1.size (by rfl) j
theorem col_cover (p : Vec F S1x1x512 .f32) (j : S1x1x512.Idx) :
    ∃ pc ∈ ([⟨colRect, p⟩] : List (View.Piece (Elt F) S1x1x512 .f32)), j ∈ pc.1.set :=
  View.cover_of_tiled [⟨colRect, p⟩] S1x1x512.size (by rfl) j

/-! ## The body's triple, per branch -/

set_option maxHeartbeats 2000000 in
/-- On a first tile: the inputs at `x`, `y`, both output buffers at anything; the body ends with the inputs as they
    were, the per-query buffer at the tile's minimum and the per-key buffer at the column minimum. -/
theorem run_first (c : Dev nD) (E : Set ℕ) (i : grid0.Coords) (h1 : k0_cond1 i = 1#1) (h2 : ¬ k0_cond2 i = 1#1)
    (arg2 : Memref sig .tc .vmem S1x4096x3 .f32) (harg2 : arg2.IsWhole) (arg3 : Memref sig .tc .vmem S1x3x512 .f32) (harg3 : arg3.IsWhole)
    (arg4 : Memref sig .tc .vmem S1x4096x1 .f32) (harg4 : arg4.IsWhole) (arg5 : Memref sig .tc .vmem S1x1x512 .f32) (harg5 : arg5.IsWhole)
    (x : Vec F S1x4096x3 .f32) (y : Vec F S1x3x512 .f32) (K : PUnit → sProp 𝕄) :
    iprop(owns (c : Thread nD τ) arg2 fullShare x ∗ owns (c : Thread nD τ) arg3 fullShare y
        ∗ (∃ d, owns (c : Thread nD τ) arg4 fullShare d) ∗ (∃ d, owns (c : Thread nD τ) arg5 fullShare d)
        ∗ (iprop(owns (c : Thread nD τ) arg2 fullShare x ∗ owns (c : Thread nD τ) arg3 fullShare y
            ∗ owns (c : Thread nD τ) arg4 fullShare (nearFirst x y) ∗ owns (c : Thread nD τ) arg5 fullShare (colMin x y)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (near_cover _)
  iexists _; isplitr
  swap; · iexact H3
  ipureintro
  exact View.read_writes_eq_canon _ _ _ (col_cover _)

set_option maxHeartbeats 2000000 in
/-- On a later tile: the inputs at `x`, `y`, the per-query buffer at `prev`, the per-key buffer at anything; the body
    ends with the inputs as they were, the per-query buffer at the minimum of `prev` and the tile's, the per-key buffer
    at the column minimum. -/
theorem run_later (c : Dev nD) (E : Set ℕ) (i : grid0.Coords) (h1 : ¬ k0_cond1 i = 1#1) (h2 : k0_cond2 i = 1#1)
    (arg2 : Memref sig .tc .vmem S1x4096x3 .f32) (harg2 : arg2.IsWhole) (arg3 : Memref sig .tc .vmem S1x3x512 .f32) (harg3 : arg3.IsWhole)
    (arg4 : Memref sig .tc .vmem S1x4096x1 .f32) (harg4 : arg4.IsWhole) (arg5 : Memref sig .tc .vmem S1x1x512 .f32) (harg5 : arg5.IsWhole)
    (x : Vec F S1x4096x3 .f32) (y : Vec F S1x3x512 .f32) (prev : Vec F S1x4096x1 .f32) (K : PUnit → sProp 𝕄) :
    iprop(owns (c : Thread nD τ) arg2 fullShare x ∗ owns (c : Thread nD τ) arg3 fullShare y
        ∗ owns (c : Thread nD τ) arg4 fullShare prev ∗ (∃ d, owns (c : Thread nD τ) arg5 fullShare d)
        ∗ (iprop(owns (c : Thread nD τ) arg2 fullShare x ∗ owns (c : Thread nD τ) arg3 fullShare y
            ∗ owns (c : Thread nD τ) arg4 fullShare (nearLater x y prev) ∗ owns (c : Thread nD τ) arg5 fullShare (colMin x y)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (near_cover _)
  iexists _; isplitr
  swap; · iexact H3
  ipureintro
  exact View.read_writes_eq_canon _ _ _ (col_cover _)

/-! ## The blocks at a point, and the running minimum -/

-- the buffer contents on every core when the region is entered
variable (V : (c : Dev nD) → (b : Ref sig .tc) → Buf (Elt F) ((c : Thread nD τ).loc b))

/-- The block of window `w` at grid position `t`, cut out of the window's array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query points' staging buffer holds the cloud's block whenever the body runs (it is fetched on a cloud's first
    tile only; in between the block's index does not move), for any proof data over the entry contents whose body leaves
    it in place. -/
theorem before_x_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The key points' staging buffer holds the tile's block whenever the body runs. -/
theorem before_y_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- THE RUNNING MINIMUM. What the per-query staging buffer holds after the body at grid position `n`: on a cloud's first
    tile the tile's minimum, on a later tile the minimum of what position `n - 1` left and the tile's. -/
def nearAt (c : Dev nD) : (n : ℕ) → n < cfg0.N → Vec F S1x4096x1 .f32
  | 0, hn => nearFirst (blockAt V c 0 ⟨0, hn⟩) (blockAt V c 1 ⟨0, hn⟩)
  | n + 1, hn =>
    if (n + 1) % 8 = 0 then nearFirst (blockAt V c 0 ⟨n + 1, hn⟩) (blockAt V c 1 ⟨n + 1, hn⟩)
    else nearLater (blockAt V c 0 ⟨n + 1, hn⟩) (blockAt V c 1 ⟨n + 1, hn⟩) (nearAt c n (Nat.lt_of_succ_lt hn))

theorem nearAt_first (c : Dev nD) (t : Fin cfg0.N) (h : t.val % 8 = 0) :
    nearAt V c t.val t.isLt = nearFirst (blockAt V c 0 t) (blockAt V c 1 t) := by
  obtain ⟨n, hn⟩ := t
  cases n with
  | zero => exact rfl
  | succ n => exact (if_pos h).trans rfl

theorem nearAt_later (c : Dev nD) (t : Fin cfg0.N) (h : ¬ t.val % 8 = 0) :
    nearAt V c t.val t.isLt = nearLater (blockAt V c 0 t) (blockAt V c 1 t)
      (nearAt V c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (if_neg h).trans rfl

/-! ## The proof data -/

/-- The proof data of the region on core `c`: the arrays as the region finds them; after the body at position `t` the
    input buffers at their blocks, the per-query buffer at the running minimum, the per-key buffer at the column minimum
    of the position's blocks; nothing owed, full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => nearAt V c t.val t.isLt
    | ⟨3, _⟩ => colMin (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = blockAt V c 0 t := by dsimp only [dat]
theorem after_y (c : Dev nD) (t : Fin cfg0.N) : (dat V c).after 1 t = blockAt V c 1 t := by dsimp only [dat]
theorem after_near (c : Dev nD) (t : Fin cfg0.N) : (dat V c).after 2 t = nearAt V c t.val t.isLt := by dsimp only [dat]
theorem after_col (c : Dev nD) (t : Fin cfg0.N) : (dat V c).after 3 t = colMin (blockAt V c 0 t) (blockAt V c 1 t) := by dsimp only [dat]

theorem before_x (c : Dev nD) (t : Fin cfg0.N) (d) : (dat V c).before 0 t d = blockAt V c 0 t :=
  before_x_of V (dat V c) (dat_A V c 0) (after_x V c) t d
theorem before_y (c : Dev nD) (t : Fin cfg0.N) (d) : (dat V c).before 1 t d = blockAt V c 1 t :=
  before_y_of V (dat V c) (dat_A V c 1) (after_y V c) t d

/-- On a later tile the per-query buffer holds what the position before left: the position is not the first, the block
    is written back only after a cloud's last tile, and the window is never idle. -/
theorem before_near_later (c : Dev nD) (t : Fin cfg0.N) (h : ¬ t.val % 8 = 0) (d) :
    (dat V c).before 2 t d = nearAt V c (t.val - 1) (Nat.lt_of_le_of_lt (Nat.sub_le _ _) t.isLt) := by
  have hN : t.val < 64 := lt_of_lt_of_eq t.isLt (show cfg0.N = 64 from N_0)
  rw [Dat.before_out_kept _ 2 rfl t (by omega) (Bool.eq_false_iff.mpr fun hf => by have := (flush0_2 _).mp hf; dsimp only at this; omega)
    near_live (fun _ _ => rfl)]
  dsimp only [dat]

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

set_option maxHeartbeats 800000 in
/-- The body at any position: the input buffers hold their blocks; the position is a cloud's first tile or a later one;
    on a later one the per-query buffer holds the running minimum so far; so the branch's run applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_y]
  rw [show (dat V c).Φ t.succ = (dat V c).Φ t.castSucc from rfl,
    show (dat V c).owesAt () t.succ = (dat V c).owesAt () t.castSucc from rfl,
    after_x, after_y, after_near, after_col]
  by_cases h : t.val % 8 = 0
  · rw [nearAt_first V c t h]
    iintro ⟨HΦ, Ho, ⟨%d0, H0⟩, ⟨%d1, H1⟩, ⟨%d2, H2⟩, ⟨%d3, H3⟩⟩
    iapply (run_first c Set.univ (grid0.coords t) ((first_tile_iff t).mpr h) (fun h2 => (later_tile_iff t).mp h2 h) _ _ _ _ _ _ _ _
      (blockAt V c 0 t) (blockAt V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [nearAt_later V c t h]
    simp only [before_near_later V c t h]
    iintro ⟨HΦ, Ho, ⟨%d0, H0⟩, ⟨%d1, H1⟩, ⟨%d2, H2⟩, ⟨%d3, H3⟩⟩
    iapply (run_later c Set.univ (grid0.coords t) (fun h1 => h ((first_tile_iff t).mp h1)) ((later_tile_iff t).mpr h) _ _ _ _ _ _ _ _
      (blockAt V c 0 t) (blockAt V c 1 t) _ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The pipeline's obligation on the body, at every position. -/
theorem body_obligation (c : Dev nD) : BodyObligation (dat (F := F) V c) (defs₀ (F := F)) Variants.none () Set.univ := fun t => by
  rw [bigSep_W0, bigSep_W0]
  simp only []
  -- the per-query window is stored at every position, so the obligation's case for an idle window does not arise
  split
  · rename_i hidle
    exact absurd ((near_live_at t).symm.trans hidle) Bool.false_ne_true
  · exact sound_body V c t

end Cert.Kernel.Chamfer

end
-- ==== Proof.BitsWhole.lean ====
/-
  The whole program as five parts in order — a host stretch (the key points transposed), the distance region, a host
  stretch (clamped roots, their means), the cosine region, a last host stretch (the mean cosine, the weighted sum) — and
  the contents of every buffer between two parts, folded from the launch memory:
  a host stretch leaves its operations' results; a region leaves each of its arrays at what its write-backs make of the
  array (an input array as it was) and every other buffer as it was.
  The theorem `run`: at any float instance, from any memory with zero counters, every weakly fair execution ends,
  nothing faulting, and every buffer that is not a staging buffer ends at the last fold's contents `B5`. Both the claim
  that the argument arrays end unchanged and the value of the result are read off it.
-/
import proofs.«103882_j3006477107870_2_alg».proof.Proof.BitsCosine
import proofs.«103882_j3006477107870_2_alg».proof.Proof.BitsChamfer
import proofs.«103882_j3006477107870_2_alg».proof.Proof.Gen.Kernel.Regions

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the parts -/

/-- At launch. -/
abbrev B0 : Dev nD → Valuation τ sig (Elt F) := fun c b => (s₀ m ρ).mem ((c : Dev nD), b)
/-- After the first host stretch: where the distance region is entered. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the distance region. -/
def B2 (c : Dev nD) : Valuation τ sig (Elt F) :=
  Pipeline.withArrays spec0 c (B1 m ρ c) fun w => (Chamfer.dat (E1 m ρ) c).arrAt w cfg0.N
theorem B2_arr (c : Dev nD) (w : Fin cfg0.W) :
    B2 m ρ c (Proc.devRef .tc (Pipeline.arrRef spec0 w)) = (Chamfer.dat (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem left0 (c : Dev nD) (w : Fin cfg0.W) : (Chamfer.dat (E1 m ρ) c).arrAt w cfg0.N = E2 m ρ c (Pipeline.arrRef spec0 w) :=
  (B2_arr m ρ c w).symm
theorem rest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch: where the cosine region is entered. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the cosine region. -/
def B4 (c : Dev nD) : Valuation τ sig (Elt F) :=
  Pipeline.withArrays spec1 c (B3 m ρ c) fun w => (Cosine.dat (E3 m ρ) c).arrAt w cfg1.N
theorem B4_arr (c : Dev nD) (w : Fin cfg1.W) :
    B4 m ρ c (Proc.devRef .tc (Pipeline.arrRef spec1 w)) = (Cosine.dat (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem left1 (c : Dev nD) (w : Fin cfg1.W) : (Cosine.dat (E3 m ρ) c).arrAt w cfg1.N = E4 m ρ c (Pipeline.arrRef spec1 w) :=
  (B4_arr m ρ c w).symm
theorem rest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the last host stretch: the end. -/
abbrev B5 : Dev nD → Valuation τ sig (Elt F) := fun c => StableHlo.after hostOps2 (B4 m ρ c)

/-! ## The proof data of both regions, and what rides beside the buffers -/

abbrev noTables : (p : Fin 2) → (pcfgs (F := F) p).Adm := fun p => (cfgs p).toPCfg_adm
/-- Each region's proof data at the contents it is entered from. -/
def pdats : (p : Fin 2) → (c : Dev nD) → Dat τ (Elt F) Unit ℕ (UR sig nD τ) ℕ (Pipeline.pin (pcfgs (F := F)) noTables p) c
  | ⟨0, _⟩ => fun c => Chamfer.dat (E1 m ρ) c
  | ⟨1, _⟩ => fun c => Cosine.dat (E3 m ρ) c
abbrev 𝒱₀ : Variants := Variants.none
abbrev L : GSem nD τ sig → Finset Unit := fun _ => ∅
abbrev lv : GSem nD τ sig → Unit → ℕ := fun _ _ => 0
/-- Beside the buffers, through every part: the core's generator register at some state, and the core owing nothing. -/
abbrev R (c : Dev nD) : sProp 𝕄 := iprop((∃ r, prngReg c r) ∗ ∃ W, owes (c : Thread nD τ) (0 : CellTallies nD τ sig Unit) W)
abbrev hostPart (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`. -/
abbrev Tₙ (c : Dev nD) : sProp 𝕄 := iprop(StableHlo.held (c : Thread nD τ) (Pipeline.ucRefs τ sig) (B5 m ρ c) ∗ ∃ r, prngReg c r)

/-! ## The regions as parts -/

set_option backward.isDefEq.respectTransparency.types false in
/-- The distance region: entered with every unscoped buffer at `B1`, left with them at `B2`. -/
def distPart : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Chamfer.body_obligation (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (left0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The cosine region: entered with every unscoped buffer at `B3`, left with them at `B4`. -/
def cosPart : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Cosine.body_obligation (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (left1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its parts, and the run -/

abbrev parts : List (Pipeline.Seg (pcfgs (F := F)) noTables (pdats m ρ) () defs₀ 𝒱₀ L lv) :=
  [ .host (hostPart hostOps0 hostOps0_sub hostOps0_fresh (B0 m ρ)),
    .region (distPart m ρ),
    .host (hostPart hostOps1 hostOps1_sub hostOps1_fresh (B2 m ρ)),
    .region (cosPart m ρ),
    .host (hostPart hostOps2 hostOps2_sub hostOps2_fresh (B4 m ρ)) ]

theorem main_parts (c : Dev nD) : main (F := F) c = Pipeline.Seg.run (parts m ρ) := (main_chain c).trans (by chain_rfl)

set_option backward.isDefEq.respectTransparency.types false in
/-- THE RUN: every weakly fair execution ends, nothing faulting, with every unscoped buffer at `B5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) noTables (pdats m ρ) () cellOf_inj emb₁ defs₀ 𝒱₀ L lv m ρ main (parts m ρ)
    (fun c Q => by rw [main_parts m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (B5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h => h)

end Cert.Kernel.Whole

end
-- ==== Proof.BitsEnds.lean ====
/-
  The argument arrays at the end of the run. None of the five parts changes one: no host operation writes an argument;
  the distance region reads the first cloud batch through an input window and does not touch the others (it reads the
  TRANSPOSED second batch, a buffer of its own); the cosine region reads the two feature batches through input windows.
  So each argument's buffer, followed back through the folded contents from the end to the launch, is the launch memory's,
  and the run of the whole program gives the claim that the arguments end unchanged — at any float instance.
-/
import proofs.«103882_j3006477107870_2_alg».proof.Proof.BitsWhole

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

variable (m : (ℓ : Loc nD τ sig) → Buf (Elt F) ℓ) (ρ : Dev nD → PrngReg)

/-- The first cloud batch: an input array of the distance region. -/
theorem B5_arg0 (c : Dev nD) : B5 m ρ c (Proc.devRef .tc main_arg0) = m ((c : Thread nD τ).loc main_arg0) :=
  calc B5 m ρ c (Proc.devRef .tc main_arg0)
    _ = B4 m ρ c (Proc.devRef .tc main_arg0) := StableHlo.after_of_writes_sub hostOps2 _ hostOps2_writes (r := main_arg0) (by decide)
    _ = B3 m ρ c (Proc.devRef .tc main_arg0) := B4_of_ne m ρ c main_arg0 (by decide)
    _ = B2 m ρ c (Proc.devRef .tc main_arg0) := StableHlo.after_of_writes_sub hostOps1 _ hostOps1_writes (r := main_arg0) (by decide)
    _ = B1 m ρ c (Proc.devRef .tc main_arg0) := (B2_arr m ρ c 0).trans (((Chamfer.dat (E1 m ρ) c).arrAt_in 0 rfl _).trans (Chamfer.dat_A (E1 m ρ) c 0))
    _ = B0 m ρ c (Proc.devRef .tc main_arg0) := StableHlo.after_of_writes_sub hostOps0 _ hostOps0_writes (r := main_arg0) (by decide)
    _ = m ((c : Thread nD τ).loc main_arg0) := rfl

/-- The second cloud batch: read by the first host stretch only. -/
theorem B5_arg1 (c : Dev nD) : B5 m ρ c (Proc.devRef .tc main_arg1) = m ((c : Thread nD τ).loc main_arg1) :=
  calc B5 m ρ c (Proc.devRef .tc main_arg1)
    _ = B4 m ρ c (Proc.devRef .tc main_arg1) := StableHlo.after_of_writes_sub hostOps2 _ hostOps2_writes (r := main_arg1) (by decide)
    _ = B3 m ρ c (Proc.devRef .tc main_arg1) := B4_of_ne m ρ c main_arg1 (by decide)
    _ = B2 m ρ c (Proc.devRef .tc main_arg1) := StableHlo.after_of_writes_sub hostOps1 _ hostOps1_writes (r := main_arg1) (by decide)
    _ = B1 m ρ c (Proc.devRef .tc main_arg1) := B2_of_ne m ρ c main_arg1 (by decide)
    _ = B0 m ρ c (Proc.devRef .tc main_arg1) := StableHlo.after_of_writes_sub hostOps0 _ hostOps0_writes (r := main_arg1) (by decide)
    _ = m ((c : Thread nD τ).loc main_arg1) := rfl

/-- The first feature batch: an input array of the cosine region. -/
theorem B5_arg2 (c : Dev nD) : B5 m ρ c (Proc.devRef .tc main_arg2) = m ((c : Thread nD τ).loc main_arg2) :=
  calc B5 m ρ c (Proc.devRef .tc main_arg2)
    _ = B4 m ρ c (Proc.devRef .tc main_arg2) := StableHlo.after_of_writes_sub hostOps2 _ hostOps2_writes (r := main_arg2) (by decide)
    _ = B3 m ρ c (Proc.devRef .tc main_arg2) := (B4_arr m ρ c 0).trans (((Cosine.dat (E3 m ρ) c).arrAt_in 0 rfl _).trans (Cosine.dat_A (E3 m ρ) c 0))
    _ = B2 m ρ c (Proc.devRef .tc main_arg2) := StableHlo.after_of_writes_sub hostOps1 _ hostOps1_writes (r := main_arg2) (by decide)
    _ = B1 m ρ c (Proc.devRef .tc main_arg2) := B2_of_ne m ρ c main_arg2 (by decide)
    _ = B0 m ρ c (Proc.devRef .tc main_arg2) := StableHlo.after_of_writes_sub hostOps0 _ hostOps0_writes (r := main_arg2) (by decide)
    _ = m ((c : Thread nD τ).loc main_arg2) := rfl

/-- The second feature batch: the cosine region's other input array. -/
theorem B5_arg3 (c : Dev nD) : B5 m ρ c (Proc.devRef .tc main_arg3) = m ((c : Thread nD τ).loc main_arg3) :=
  calc B5 m ρ c (Proc.devRef .tc main_arg3)
    _ = B4 m ρ c (Proc.devRef .tc main_arg3) := StableHlo.after_of_writes_sub hostOps2 _ hostOps2_writes (r := main_arg3) (by decide)
    _ = B3 m ρ c (Proc.devRef .tc main_arg3) := (B4_arr m ρ c 1).trans (((Cosine.dat (E3 m ρ) c).arrAt_in 1 rfl _).trans (Cosine.dat_A (E3 m ρ) c 1))
    _ = B2 m ρ c (Proc.devRef .tc main_arg3) := StableHlo.after_of_writes_sub hostOps1 _ hostOps1_writes (r := main_arg3) (by decide)
    _ = B1 m ρ c (Proc.devRef .tc main_arg3) := B2_of_ne m ρ c main_arg3 (by decide)
    _ = B0 m ρ c (Proc.devRef .tc main_arg3) := StableHlo.after_of_writes_sub hostOps0 _ hostOps0_writes (r := main_arg3) (by decide)
    _ = m ((c : Thread nD τ).loc main_arg3) := rfl

/-- THE FRAME, at any float instance: the program runs to the end, nothing faulting, and its four argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (B5_arg0 m ρ c),
     (h c _ (mem_uc main_arg1 (by decide))).trans (B5_arg1 m ρ c),
     (h c _ (mem_uc main_arg2 (by decide))).trans (B5_arg2 m ρ c),
     (h c _ (mem_uc main_arg3 (by decide))).trans (B5_arg3 m ρ c)⟩) (run m ρ)

end Cert.Kernel.Whole

end
-- ==== Proof.IdealCosine.lean ====
/-
  The second kernel region: per cloud, the mean over its 4096 rows of the cosine of two feature rows.

  The region's grid has one point per cloud. At a point the body reads the two 4096 × 32 blocks of the cloud whole,
  and writes its one-entry output block whole, once: the entry is a pure function of the two blocks read. So whatever
  the output's staging buffer held before, after the body it holds that function of the two input blocks, and the two
  input buffers are as they were. This module states that, at any float instance, for buffer contents `V` found when
  the region is entered, and derives the obligation the pipeline asks of the body at every point.
-/
import proofs.«103882_j3006477107870_2_alg».proof.Proof.Gen.KernelIdeal.Launch
import proofs.«103882_j3006477107870_2_alg».proof.Proof.Gen.KernelIdeal.Skeleton
import proofs.«103882_j3006477107870_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Cosine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

-- the buffer contents on every core when the region is entered
variable (V : (c : Dev nD) → (b : Ref sig .tc) → Buf (Elt F) ((c : Thread nD τ).loc b))

/-- The block of window `w` at the cloud `t`, cut out of the window's array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first feature array's staging buffer holds the cloud's block whenever the body runs, for any proof data over
    the entry contents whose body leaves that block in place. -/
theorem before_f_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the second feature array. -/
theorem before_g_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The whole 4096 × 32 block of a cloud, as a rectangle of its staging buffer. -/
abbrev rowsRect : Rect S1x4096x32 := Rect.unit (s := S1x4096x32) ![0, 0, 0] S1x4096x32.size inb_S1x4096x32_S1x4096x32_0_0_0
/-- The one-entry output block, as a rectangle of its staging buffer. -/
abbrev meanRect : Rect S1x1x1 := Rect.unit (s := S1x1x1) ![0, 0, 0] S1x1x1.size inb_S1x1x1_S1x1x1_0_0_0

/-- What the body leaves in the output's staging buffer: its single store, of the mean cosine of the two blocks read. -/
def meanOf (f g : Vec F S1x4096x32 .f32) : Vec F S1x1x1 .f32 :=
  View.canon [⟨meanRect, k1_pay1 (View.ld f rowsRect) (View.ld g rowsRect)⟩]

/-- The single store covers the one-entry block. -/
theorem mean_cover (p : Vec F S1x1x1 .f32) (y : S1x1x1.Idx) :
    ∃ pc ∈ ([⟨meanRect, p⟩] : List (View.Piece (Elt F) S1x1x1 .f32)), y ∈ pc.1.set :=
  View.cover_of_tiled [⟨meanRect, p⟩] S1x1x1.size (by rfl) y

set_option maxHeartbeats 1000000 in
/-- The body, on whole staging buffers holding `f` and `g` and an output buffer holding anything, runs to its end
    with the inputs as they were and the output at `meanOf f g`. -/
theorem body_run (c : Dev nD) (E : Set ℕ) (i : grid1.Coords) (arg1 : Memref sig .tc .vmem S1x4096x32 .f32) (harg1 : arg1.IsWhole)
    (arg2 : Memref sig .tc .vmem S1x4096x32 .f32) (harg2 : arg2.IsWhole) (arg3 : Memref sig .tc .vmem S1x1x1 .f32) (harg3 : arg3.IsWhole)
    (f g : Vec F S1x4096x32 .f32) (K : PUnit → sProp 𝕄) :
    iprop(owns (c : Thread nD τ) arg1 fullShare f ∗ owns (c : Thread nD τ) arg2 fullShare g ∗ (∃ d, owns (c : Thread nD τ) arg3 fullShare d)
        ∗ (iprop(owns (c : Thread nD τ) arg1 fullShare f ∗ owns (c : Thread nD τ) arg2 fullShare g ∗ owns (c : Thread nD τ) arg3 fullShare (meanOf f g)) -∗ K ⟨⟩))
      ⊢ wp frame (wpE (defs₀ (F := F)) Variants.none c none) E (cc1__cosine_kernel i arg1 harg1 arg2 harg2 arg3 harg3) K := by
  simp only [cc1__cosine_kernel_eq_skeleton]; unfold cc1__cosine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (mean_cover _)

/-- The proof data of the region on core `c`: the arrays as the region finds them; after the body at cloud `t` each
    input buffer at its block and the output buffer at the mean cosine of the two blocks; nothing owed, full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => meanOf (blockAt V c 0 t) (blockAt V c 1 t)
  Φ _ := Pipeline.ΦA spec1 c
  q _ := fullShare
  owed _ := 0

theorem dat_A (c : Dev nD) (w : Fin cfg1.W) : (dat V c).A w = V c (Pipeline.arrRef spec1 w) := by
  dsimp only [dat]

theorem after_f (c : Dev nD) (t : Fin cfg1.N) : (dat V c).after 0 t = blockAt V c 0 t := by dsimp only [dat]
theorem after_g (c : Dev nD) (t : Fin cfg1.N) : (dat V c).after 1 t = blockAt V c 1 t := by dsimp only [dat]
theorem after_mean (c : Dev nD) (t : Fin cfg1.N) : (dat V c).after 2 t = meanOf (blockAt V c 0 t) (blockAt V c 1 t) := by dsimp only [dat]

theorem before_f (c : Dev nD) (t : Fin cfg1.N) (d) : (dat V c).before 0 t d = blockAt V c 0 t :=
  before_f_of V (dat V c) (dat_A V c 0) (after_f V c) t d
theorem before_g (c : Dev nD) (t : Fin cfg1.N) (d) : (dat V c).before 1 t d = blockAt V c 1 t :=
  before_g_of V (dat V c) (dat_A V c 1) (after_g V c) t d

/-- What the body is called with at cloud `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any cloud: the input buffers hold their blocks, so `body_run` applies; the rest passes through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_f, before_g]
  rw [show (dat V c).Φ t.succ = (dat V c).Φ t.castSucc from rfl,
    show (dat V c).owesAt () t.succ = (dat V c).owesAt () t.castSucc from rfl,
    after_f, after_g, after_mean]
  iintro ⟨HΦ, Ho, ⟨%d0, H0⟩, ⟨%d1, H1⟩, ⟨%d2, H2⟩⟩
  iapply (body_run c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every cloud. -/
theorem body_obligation (c : Dev nD) : BodyObligation (dat (F := F) V c) (defs₀ (F := F)) Variants.none () Set.univ := fun t => by
  rw [bigSep_W1, bigSep_W1]
  exact sound_body V c t

end Cert.KernelIdeal.Cosine

end
-- ==== Proof.IdealChamfer.lean ====
/-
  The first kernel region: squared distances between the points of two clouds, minimised in both directions.

  The grid is 8 clouds × 8 key tiles of 512 points, the key tile moving fastest. At a point (cloud `b`, tile `k`) the body
  reads the cloud's 4096 query points (block `x`, 4096 × 3) and the tile's 512 key points, transposed (block `y`, 3 × 512),
  and forms the 4096 × 512 squared distances. It writes two outputs, each by one store of its whole block:
  * per key point, the minimum over the 4096 query points (a 1 × 512 block, one per grid point, written back every time);
  * per query point, the minimum over the tile's key points — a 4096 × 1 block shared by the 8 tiles of a cloud and
    written back only after the last of them. On a cloud's first tile (`k = 0`) the body stores the tile's minimum;
    on a later tile (`k ≠ 0`) it stores the minimum of what the buffer holds — the running minimum the tile before
    left — and the tile's. The two branches are exclusive and exhaustive: `k = 0` or `k ≠ 0`.
  So the running minimum is defined by recursion on the grid position (`nearAt`), and the body's triple is proved
  once per branch. Everything here is at any float instance and for buffer contents `V` found at the region's entry.
-/
import proofs.«103882_j3006477107870_2_alg».proof.Proof.Gen.KernelIdeal.Launch
import proofs.«103882_j3006477107870_2_alg».proof.Proof.Gen.KernelIdeal.Skeleton
import proofs.«103882_j3006477107870_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The two branches, over the grid -/

/-- The first branch is taken exactly on a cloud's first key tile: the positions divisible by 8. -/
theorem first_tile_iff : ∀ t : Fin cfg0.N, k0_cond1 (grid0.coords t) = 1#1 ↔ t.val % 8 = 0 :=
  (by decide +kernel : ∀ t : Fin grid0.N, k0_cond1 (grid0.coords t) = 1#1 ↔ t.val % 8 = 0)
/-- The second branch is taken exactly on the other tiles. -/
theorem later_tile_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)
/-- One of the two branches stores the per-query block at every point: the window is never idle. -/
theorem near_live : ∀ i : grid0.Coords, cfg0.idle 2 i = false :=
  (by decide +kernel : ∀ i : grid0.Coords, idle0 2 i = false)

/-- The same at a grid position, in the spelling the pipeline's obligation uses. -/
theorem near_live_at (t : Fin cfg0.N) : idle0 2 (grid0.coords t) = false := near_live _

/-! ## The blocks' rectangles and what the body stores -/

abbrev xRect : Rect S1x4096x3 := Rect.unit (s := S1x4096x3) ![0, 0, 0] S1x4096x3.size inb_S1x4096x3_S1x4096x3_0_0_0
abbrev yRect : Rect S1x3x512 := Rect.unit (s := S1x3x512) ![0, 0, 0] S1x3x512.size inb_S1x3x512_S1x3x512_0_0_0
abbrev nearRect : Rect S1x4096x1 := Rect.unit (s := S1x4096x1) ![0, 0, 0] S1x4096x1.size inb_S1x4096x1_S1x4096x1_0_0_0
abbrev colRect : Rect S1x1x512 := Rect.unit (s := S1x1x512) ![0, 0, 0] S1x1x512.size inb_S1x1x512_S1x1x512_0_0_0

/-- The per-query block after a cloud's first tile: the tile's minimum over its key points. -/
def nearFirst (x : Vec F S1x4096x3 .f32) (y : Vec F S1x3x512 .f32) : Vec F S1x4096x1 .f32 :=
  View.canon [⟨nearRect, k0_pay3 (View.ld x xRect) (View.ld y yRect)⟩]
/-- The per-query block after a later tile: the minimum of what it held (`prev`) and the tile's. -/
def nearLater (x : Vec F S1x4096x3 .f32) (y : Vec F S1x3x512 .f32) (prev : Vec F S1x4096x1 .f32) : Vec F S1x4096x1 .f32 :=
  View.canon [⟨nearRect, k0_pay4 (View.ld x xRect) (View.ld y yRect) (View.ld prev nearRect)⟩]
/-- The per-key block after any tile: the minimum over the cloud's query points. -/
def colMin (x : Vec F S1x4096x3 .f32) (y : Vec F S1x3x512 .f32) : Vec F S1x1x512 .f32 :=
  View.canon [⟨colRect, k0_pay5 (View.ld x xRect) (View.ld y yRect)⟩]

theorem near_cover (p : Vec F S1x4096x1 .f32) (j : S1x4096x1.Idx) :
    ∃ pc ∈ ([⟨nearRect, p⟩] : List (View.Piece (Elt F) S1x4096x1 .f32)), j ∈ pc.1.set :=
  View.cover_of_tiled [⟨nearRect, p⟩] S1x4096x1.size (by rfl) j
theorem col_cover (p : Vec F S1x1x512 .f32) (j : S1x1x512.Idx) :
    ∃ pc ∈ ([⟨colRect, p⟩] : List (View.Piece (Elt F) S1x1x512 .f32)), j ∈ pc.1.set :=
  View.cover_of_tiled [⟨colRect, p⟩] S1x1x512.size (by rfl) j

/-! ## The body's triple, per branch -/

set_option maxHeartbeats 2000000 in
/-- On a first tile: the inputs at `x`, `y`, both output buffers at anything; the body ends with the inputs as they
    were, the per-query buffer at the tile's minimum and the per-key buffer at the column minimum. -/
theorem run_first (c : Dev nD) (E : Set ℕ) (i : grid0.Coords) (h1 : k0_cond1 i = 1#1) (h2 : ¬ k0_cond2 i = 1#1)
    (arg2 : Memref sig .tc .vmem S1x4096x3 .f32) (harg2 : arg2.IsWhole) (arg3 : Memref sig .tc .vmem S1x3x512 .f32) (harg3 : arg3.IsWhole)
    (arg4 : Memref sig .tc .vmem S1x4096x1 .f32) (harg4 : arg4.IsWhole) (arg5 : Memref sig .tc .vmem S1x1x512 .f32) (harg5 : arg5.IsWhole)
    (x : Vec F S1x4096x3 .f32) (y : Vec F S1x3x512 .f32) (K : PUnit → sProp 𝕄) :
    iprop(owns (c : Thread nD τ) arg2 fullShare x ∗ owns (c : Thread nD τ) arg3 fullShare y
        ∗ (∃ d, owns (c : Thread nD τ) arg4 fullShare d) ∗ (∃ d, owns (c : Thread nD τ) arg5 fullShare d)
        ∗ (iprop(owns (c : Thread nD τ) arg2 fullShare x ∗ owns (c : Thread nD τ) arg3 fullShare y
            ∗ owns (c : Thread nD τ) arg4 fullShare (nearFirst x y) ∗ owns (c : Thread nD τ) arg5 fullShare (colMin x y)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (near_cover _)
  iexists _; isplitr
  swap; · iexact H3
  ipureintro
  exact View.read_writes_eq_canon _ _ _ (col_cover _)

set_option maxHeartbeats 2000000 in
/-- On a later tile: the inputs at `x`, `y`, the per-query buffer at `prev`, the per-key buffer at anything; the body
    ends with the inputs as they were, the per-query buffer at the minimum of `prev` and the tile's, the per-key buffer
    at the column minimum. -/
theorem run_later (c : Dev nD) (E : Set ℕ) (i : grid0.Coords) (h1 : ¬ k0_cond1 i = 1#1) (h2 : k0_cond2 i = 1#1)
    (arg2 : Memref sig .tc .vmem S1x4096x3 .f32) (harg2 : arg2.IsWhole) (arg3 : Memref sig .tc .vmem S1x3x512 .f32) (harg3 : arg3.IsWhole)
    (arg4 : Memref sig .tc .vmem S1x4096x1 .f32) (harg4 : arg4.IsWhole) (arg5 : Memref sig .tc .vmem S1x1x512 .f32) (harg5 : arg5.IsWhole)
    (x : Vec F S1x4096x3 .f32) (y : Vec F S1x3x512 .f32) (prev : Vec F S1x4096x1 .f32) (K : PUnit → sProp 𝕄) :
    iprop(owns (c : Thread nD τ) arg2 fullShare x ∗ owns (c : Thread nD τ) arg3 fullShare y
        ∗ owns (c : Thread nD τ) arg4 fullShare prev ∗ (∃ d, owns (c : Thread nD τ) arg5 fullShare d)
        ∗ (iprop(owns (c : Thread nD τ) arg2 fullShare x ∗ owns (c : Thread nD τ) arg3 fullShare y
            ∗ owns (c : Thread nD τ) arg4 fullShare (nearLater x y prev) ∗ owns (c : Thread nD τ) arg5 fullShare (colMin x y)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (near_cover _)
  iexists _; isplitr
  swap; · iexact H3
  ipureintro
  exact View.read_writes_eq_canon _ _ _ (col_cover _)

/-! ## The blocks at a point, and the running minimum -/

-- the buffer contents on every core when the region is entered
variable (V : (c : Dev nD) → (b : Ref sig .tc) → Buf (Elt F) ((c : Thread nD τ).loc b))

/-- The block of window `w` at grid position `t`, cut out of the window's array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query points' staging buffer holds the cloud's block whenever the body runs (it is fetched on a cloud's first
    tile only; in between the block's index does not move), for any proof data over the entry contents whose body leaves
    it in place. -/
theorem before_x_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The key points' staging buffer holds the tile's block whenever the body runs. -/
theorem before_y_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- THE RUNNING MINIMUM. What the per-query staging buffer holds after the body at grid position `n`: on a cloud's first
    tile the tile's minimum, on a later tile the minimum of what position `n - 1` left and the tile's. -/
def nearAt (c : Dev nD) : (n : ℕ) → n < cfg0.N → Vec F S1x4096x1 .f32
  | 0, hn => nearFirst (blockAt V c 0 ⟨0, hn⟩) (blockAt V c 1 ⟨0, hn⟩)
  | n + 1, hn =>
    if (n + 1) % 8 = 0 then nearFirst (blockAt V c 0 ⟨n + 1, hn⟩) (blockAt V c 1 ⟨n + 1, hn⟩)
    else nearLater (blockAt V c 0 ⟨n + 1, hn⟩) (blockAt V c 1 ⟨n + 1, hn⟩) (nearAt c n (Nat.lt_of_succ_lt hn))

theorem nearAt_first (c : Dev nD) (t : Fin cfg0.N) (h : t.val % 8 = 0) :
    nearAt V c t.val t.isLt = nearFirst (blockAt V c 0 t) (blockAt V c 1 t) := by
  obtain ⟨n, hn⟩ := t
  cases n with
  | zero => exact rfl
  | succ n => exact (if_pos h).trans rfl

theorem nearAt_later (c : Dev nD) (t : Fin cfg0.N) (h : ¬ t.val % 8 = 0) :
    nearAt V c t.val t.isLt = nearLater (blockAt V c 0 t) (blockAt V c 1 t)
      (nearAt V c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (if_neg h).trans rfl

/-! ## The proof data -/

/-- The proof data of the region on core `c`: the arrays as the region finds them; after the body at position `t` the
    input buffers at their blocks, the per-query buffer at the running minimum, the per-key buffer at the column minimum
    of the position's blocks; nothing owed, full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => nearAt V c t.val t.isLt
    | ⟨3, _⟩ => colMin (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = blockAt V c 0 t := by dsimp only [dat]
theorem after_y (c : Dev nD) (t : Fin cfg0.N) : (dat V c).after 1 t = blockAt V c 1 t := by dsimp only [dat]
theorem after_near (c : Dev nD) (t : Fin cfg0.N) : (dat V c).after 2 t = nearAt V c t.val t.isLt := by dsimp only [dat]
theorem after_col (c : Dev nD) (t : Fin cfg0.N) : (dat V c).after 3 t = colMin (blockAt V c 0 t) (blockAt V c 1 t) := by dsimp only [dat]

theorem before_x (c : Dev nD) (t : Fin cfg0.N) (d) : (dat V c).before 0 t d = blockAt V c 0 t :=
  before_x_of V (dat V c) (dat_A V c 0) (after_x V c) t d
theorem before_y (c : Dev nD) (t : Fin cfg0.N) (d) : (dat V c).before 1 t d = blockAt V c 1 t :=
  before_y_of V (dat V c) (dat_A V c 1) (after_y V c) t d

/-- On a later tile the per-query buffer holds what the position before left: the position is not the first, the block
    is written back only after a cloud's last tile, and the window is never idle. -/
theorem before_near_later (c : Dev nD) (t : Fin cfg0.N) (h : ¬ t.val % 8 = 0) (d) :
    (dat V c).before 2 t d = nearAt V c (t.val - 1) (Nat.lt_of_le_of_lt (Nat.sub_le _ _) t.isLt) := by
  have hN : t.val < 64 := lt_of_lt_of_eq t.isLt (show cfg0.N = 64 from N_0)
  rw [Dat.before_out_kept _ 2 rfl t (by omega) (Bool.eq_false_iff.mpr fun hf => by have := (flush0_2 _).mp hf; dsimp only at this; omega)
    near_live (fun _ _ => rfl)]
  dsimp only [dat]

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

set_option maxHeartbeats 800000 in
/-- The body at any position: the input buffers hold their blocks; the position is a cloud's first tile or a later one;
    on a later one the per-query buffer holds the running minimum so far; so the branch's run applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_y]
  rw [show (dat V c).Φ t.succ = (dat V c).Φ t.castSucc from rfl,
    show (dat V c).owesAt () t.succ = (dat V c).owesAt () t.castSucc from rfl,
    after_x, after_y, after_near, after_col]
  by_cases h : t.val % 8 = 0
  · rw [nearAt_first V c t h]
    iintro ⟨HΦ, Ho, ⟨%d0, H0⟩, ⟨%d1, H1⟩, ⟨%d2, H2⟩, ⟨%d3, H3⟩⟩
    iapply (run_first c Set.univ (grid0.coords t) ((first_tile_iff t).mpr h) (fun h2 => (later_tile_iff t).mp h2 h) _ _ _ _ _ _ _ _
      (blockAt V c 0 t) (blockAt V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [nearAt_later V c t h]
    simp only [before_near_later V c t h]
    iintro ⟨HΦ, Ho, ⟨%d0, H0⟩, ⟨%d1, H1⟩, ⟨%d2, H2⟩, ⟨%d3, H3⟩⟩
    iapply (run_later c Set.univ (grid0.coords t) (fun h1 => h ((first_tile_iff t).mp h1)) ((later_tile_iff t).mpr h) _ _ _ _ _ _ _ _
      (blockAt V c 0 t) (blockAt V c 1 t) _ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The pipeline's obligation on the body, at every position. -/
theorem body_obligation (c : Dev nD) : BodyObligation (dat (F := F) V c) (defs₀ (F := F)) Variants.none () Set.univ := fun t => by
  rw [bigSep_W0, bigSep_W0]
  simp only []
  -- the per-query window is stored at every position, so the obligation's case for an idle window does not arise
  split
  · rename_i hidle
    exact absurd ((near_live_at t).symm.trans hidle) Bool.false_ne_true
  · exact sound_body V c t

end Cert.KernelIdeal.Chamfer

end
-- ==== Proof.IdealWhole.lean ====
/-
  The whole program as five parts in order — a host stretch (the key points transposed), the distance region, a host
  stretch (clamped roots, their means), the cosine region, a last host stretch (the mean cosine, the weighted sum) — and
  the contents of every buffer between two parts, folded from the launch memory:
  a host stretch leaves its operations' results; a region leaves each of its arrays at what its write-backs make of the
  array (an input array as it was) and every other buffer as it was.
  The theorem `run`: at any float instance, from any memory with zero counters, every weakly fair execution ends,
  nothing faulting, and every buffer that is not a staging buffer ends at the last fold's contents `B5`. Both the claim
  that the argument arrays end unchanged and the value of the result are read off it.
-/
import proofs.«103882_j3006477107870_2_alg».proof.Proof.IdealCosine
import proofs.«103882_j3006477107870_2_alg».proof.Proof.IdealChamfer
import proofs.«103882_j3006477107870_2_alg».proof.Proof.Gen.KernelIdeal.Regions

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the parts -/

/-- At launch. -/
abbrev B0 : Dev nD → Valuation τ sig (Elt F) := fun c b => (s₀ m ρ).mem ((c : Dev nD), b)
/-- After the first host stretch: where the distance region is entered. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the distance region. -/
def B2 (c : Dev nD) : Valuation τ sig (Elt F) :=
  Pipeline.withArrays spec0 c (B1 m ρ c) fun w => (Chamfer.dat (E1 m ρ) c).arrAt w cfg0.N
theorem B2_arr (c : Dev nD) (w : Fin cfg0.W) :
    B2 m ρ c (Proc.devRef .tc (Pipeline.arrRef spec0 w)) = (Chamfer.dat (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem left0 (c : Dev nD) (w : Fin cfg0.W) : (Chamfer.dat (E1 m ρ) c).arrAt w cfg0.N = E2 m ρ c (Pipeline.arrRef spec0 w) :=
  (B2_arr m ρ c w).symm
theorem rest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch: where the cosine region is entered. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the cosine region. -/
def B4 (c : Dev nD) : Valuation τ sig (Elt F) :=
  Pipeline.withArrays spec1 c (B3 m ρ c) fun w => (Cosine.dat (E3 m ρ) c).arrAt w cfg1.N
theorem B4_arr (c : Dev nD) (w : Fin cfg1.W) :
    B4 m ρ c (Proc.devRef .tc (Pipeline.arrRef spec1 w)) = (Cosine.dat (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem left1 (c : Dev nD) (w : Fin cfg1.W) : (Cosine.dat (E3 m ρ) c).arrAt w cfg1.N = E4 m ρ c (Pipeline.arrRef spec1 w) :=
  (B4_arr m ρ c w).symm
theorem rest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the last host stretch: the end. -/
abbrev B5 : Dev nD → Valuation τ sig (Elt F) := fun c => StableHlo.after hostOps2 (B4 m ρ c)

/-! ## The proof data of both regions, and what rides beside the buffers -/

abbrev noTables : (p : Fin 2) → (pcfgs (F := F) p).Adm := fun p => (cfgs p).toPCfg_adm
/-- Each region's proof data at the contents it is entered from. -/
def pdats : (p : Fin 2) → (c : Dev nD) → Dat τ (Elt F) Unit ℕ (UR sig nD τ) ℕ (Pipeline.pin (pcfgs (F := F)) noTables p) c
  | ⟨0, _⟩ => fun c => Chamfer.dat (E1 m ρ) c
  | ⟨1, _⟩ => fun c => Cosine.dat (E3 m ρ) c
abbrev 𝒱₀ : Variants := Variants.none
abbrev L : GSem nD τ sig → Finset Unit := fun _ => ∅
abbrev lv : GSem nD τ sig → Unit → ℕ := fun _ _ => 0
/-- Beside the buffers, through every part: the core's generator register at some state, and the core owing nothing. -/
abbrev R (c : Dev nD) : sProp 𝕄 := iprop((∃ r, prngReg c r) ∗ ∃ W, owes (c : Thread nD τ) (0 : CellTallies nD τ sig Unit) W)
abbrev hostPart (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`. -/
abbrev Tₙ (c : Dev nD) : sProp 𝕄 := iprop(StableHlo.held (c : Thread nD τ) (Pipeline.ucRefs τ sig) (B5 m ρ c) ∗ ∃ r, prngReg c r)

/-! ## The regions as parts -/

set_option backward.isDefEq.respectTransparency.types false in
/-- The distance region: entered with every unscoped buffer at `B1`, left with them at `B2`. -/
def distPart : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Chamfer.body_obligation (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (left0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The cosine region: entered with every unscoped buffer at `B3`, left with them at `B4`. -/
def cosPart : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Cosine.body_obligation (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (left1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its parts, and the run -/

abbrev parts : List (Pipeline.Seg (pcfgs (F := F)) noTables (pdats m ρ) () defs₀ 𝒱₀ L lv) :=
  [ .host (hostPart hostOps0 hostOps0_sub hostOps0_fresh (B0 m ρ)),
    .region (distPart m ρ),
    .host (hostPart hostOps1 hostOps1_sub hostOps1_fresh (B2 m ρ)),
    .region (cosPart m ρ),
    .host (hostPart hostOps2 hostOps2_sub hostOps2_fresh (B4 m ρ)) ]

theorem main_parts (c : Dev nD) : main (F := F) c = Pipeline.Seg.run (parts m ρ) := (main_chain c).trans (by chain_rfl)

set_option backward.isDefEq.respectTransparency.types false in
/-- THE RUN: every weakly fair execution ends, nothing faulting, with every unscoped buffer at `B5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) noTables (pdats m ρ) () cellOf_inj emb₁ defs₀ 𝒱₀ L lv m ρ main (parts m ρ)
    (fun c Q => by rw [main_parts m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (B5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h => h)

end Cert.KernelIdeal.Whole

end
-- ==== Proof.IdealEnds.lean ====
/-
  The argument arrays at the end of the run. None of the five parts changes one: no host operation writes an argument;
  the distance region reads the first cloud batch through an input window and does not touch the others (it reads the
  TRANSPOSED second batch, a buffer of its own); the cosine region reads the two feature batches through input windows.
  So each argument's buffer, followed back through the folded contents from the end to the launch, is the launch memory's,
  and the run of the whole program gives the claim that the arguments end unchanged — at any float instance.
-/
import proofs.«103882_j3006477107870_2_alg».proof.Proof.IdealWhole

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

variable (m : (ℓ : Loc nD τ sig) → Buf (Elt F) ℓ) (ρ : Dev nD → PrngReg)

/-- The first cloud batch: an input array of the distance region. -/
theorem B5_arg0 (c : Dev nD) : B5 m ρ c (Proc.devRef .tc main_arg0) = m ((c : Thread nD τ).loc main_arg0) :=
  calc B5 m ρ c (Proc.devRef .tc main_arg0)
    _ = B4 m ρ c (Proc.devRef .tc main_arg0) := StableHlo.after_of_writes_sub hostOps2 _ hostOps2_writes (r := main_arg0) (by decide)
    _ = B3 m ρ c (Proc.devRef .tc main_arg0) := B4_of_ne m ρ c main_arg0 (by decide)
    _ = B2 m ρ c (Proc.devRef .tc main_arg0) := StableHlo.after_of_writes_sub hostOps1 _ hostOps1_writes (r := main_arg0) (by decide)
    _ = B1 m ρ c (Proc.devRef .tc main_arg0) := (B2_arr m ρ c 0).trans (((Chamfer.dat (E1 m ρ) c).arrAt_in 0 rfl _).trans (Chamfer.dat_A (E1 m ρ) c 0))
    _ = B0 m ρ c (Proc.devRef .tc main_arg0) := StableHlo.after_of_writes_sub hostOps0 _ hostOps0_writes (r := main_arg0) (by decide)
    _ = m ((c : Thread nD τ).loc main_arg0) := rfl

/-- The second cloud batch: read by the first host stretch only. -/
theorem B5_arg1 (c : Dev nD) : B5 m ρ c (Proc.devRef .tc main_arg1) = m ((c : Thread nD τ).loc main_arg1) :=
  calc B5 m ρ c (Proc.devRef .tc main_arg1)
    _ = B4 m ρ c (Proc.devRef .tc main_arg1) := StableHlo.after_of_writes_sub hostOps2 _ hostOps2_writes (r := main_arg1) (by decide)
    _ = B3 m ρ c (Proc.devRef .tc main_arg1) := B4_of_ne m ρ c main_arg1 (by decide)
    _ = B2 m ρ c (Proc.devRef .tc main_arg1) := StableHlo.after_of_writes_sub hostOps1 _ hostOps1_writes (r := main_arg1) (by decide)
    _ = B1 m ρ c (Proc.devRef .tc main_arg1) := B2_of_ne m ρ c main_arg1 (by decide)
    _ = B0 m ρ c (Proc.devRef .tc main_arg1) := StableHlo.after_of_writes_sub hostOps0 _ hostOps0_writes (r := main_arg1) (by decide)
    _ = m ((c : Thread nD τ).loc main_arg1) := rfl

/-- The first feature batch: an input array of the cosine region. -/
theorem B5_arg2 (c : Dev nD) : B5 m ρ c (Proc.devRef .tc main_arg2) = m ((c : Thread nD τ).loc main_arg2) :=
  calc B5 m ρ c (Proc.devRef .tc main_arg2)
    _ = B4 m ρ c (Proc.devRef .tc main_arg2) := StableHlo.after_of_writes_sub hostOps2 _ hostOps2_writes (r := main_arg2) (by decide)
    _ = B3 m ρ c (Proc.devRef .tc main_arg2) := (B4_arr m ρ c 0).trans (((Cosine.dat (E3 m ρ) c).arrAt_in 0 rfl _).trans (Cosine.dat_A (E3 m ρ) c 0))
    _ = B2 m ρ c (Proc.devRef .tc main_arg2) := StableHlo.after_of_writes_sub hostOps1 _ hostOps1_writes (r := main_arg2) (by decide)
    _ = B1 m ρ c (Proc.devRef .tc main_arg2) := B2_of_ne m ρ c main_arg2 (by decide)
    _ = B0 m ρ c (Proc.devRef .tc main_arg2) := StableHlo.after_of_writes_sub hostOps0 _ hostOps0_writes (r := main_arg2) (by decide)
    _ = m ((c : Thread nD τ).loc main_arg2) := rfl

/-- The second feature batch: the cosine region's other input array. -/
theorem B5_arg3 (c : Dev nD) : B5 m ρ c (Proc.devRef .tc main_arg3) = m ((c : Thread nD τ).loc main_arg3) :=
  calc B5 m ρ c (Proc.devRef .tc main_arg3)
    _ = B4 m ρ c (Proc.devRef .tc main_arg3) := StableHlo.after_of_writes_sub hostOps2 _ hostOps2_writes (r := main_arg3) (by decide)
    _ = B3 m ρ c (Proc.devRef .tc main_arg3) := (B4_arr m ρ c 1).trans (((Cosine.dat (E3 m ρ) c).arrAt_in 1 rfl _).trans (Cosine.dat_A (E3 m ρ) c 1))
    _ = B2 m ρ c (Proc.devRef .tc main_arg3) := StableHlo.after_of_writes_sub hostOps1 _ hostOps1_writes (r := main_arg3) (by decide)
    _ = B1 m ρ c (Proc.devRef .tc main_arg3) := B2_of_ne m ρ c main_arg3 (by decide)
    _ = B0 m ρ c (Proc.devRef .tc main_arg3) := StableHlo.after_of_writes_sub hostOps0 _ hostOps0_writes (r := main_arg3) (by decide)
    _ = m ((c : Thread nD τ).loc main_arg3) := rfl

/-- THE FRAME, at any float instance: the program runs to the end, nothing faulting, and its four argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (B5_arg0 m ρ c),
     (h c _ (mem_uc main_arg1 (by decide))).trans (B5_arg1 m ρ c),
     (h c _ (mem_uc main_arg2 (by decide))).trans (B5_arg2 m ρ c),
     (h c _ (mem_uc main_arg3 (by decide))).trans (B5_arg3 m ρ c)⟩) (run m ρ)

end Cert.KernelIdeal.Whole

end
-- ==== Proof.IdealDistBlocks.lean ====
/-
  Where the distance region's blocks lie in their arrays. Grid position `t` is cloud `t / 8`, key tile `t % 8`:
  the query block is all 4096 points of cloud `t / 8`; the key block is columns `512 (t % 8) … 512 (t % 8) + 511` of the
  cloud's transposed key points; the per-query output block is the cloud's whole column, the per-key output block the
  tile's 512 columns of the cloud's row. An entry of a block is the entry of the array at block index × block size plus
  the position inside the block, axis by axis.
-/
import proofs.«103882_j3006477107870_2_alg».proof.Proof.IdealChamfer
import Idealize.ShloMosaic.Lib.Pipeline.Value
import Idealize.ShloMosaic.Lib.ValueIdx

set_option maxRecDepth 16384

noncomputable section

namespace Cert.KernelIdeal.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable {F : FTy → Type} [FloatOps F]

variable (V : (c : Dev nD) → (b : Ref sig .tc) → Buf (Elt F) ((c : Thread nD τ).loc b))

/-- The printed index maps over the grid: the cloud is `t / 8`, the key tile `t % 8`. -/
theorem block_index : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = t.val % 8
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = t.val % 8 :=
  (by decide +kernel : ∀ t : Fin grid0.N, _)

/-- A query block's entry is the first cloud batch's entry in cloud `t / 8`. -/
theorem x_block_apply (c : Dev nD) (t : Fin cfg0.N) (y : S1x4096x3.Idx) (k : S8x4096x3.Idx)
    (h0 : (k 0).val = t.val / 8) (h1 : (k 1).val = (y 1).val) (h2 : (k 2).val = (y 2).val) :
    (blockAt V c 0 t : Vec F S1x4096x3 .f32) y = (V c main_arg0 : S8x4096x3.Idx → Elt F .f32) k := by
  obtain ⟨e0, e1, e2, -⟩ := block_index t
  have hy0 : (y 0).val = 0 := by have h : (y 0).val < 1 := (y 0).isLt; omega
  unfold blockAt
  rw [View.read_apply]
  show (V c main_arg0 : S8x4096x3.Idx → Elt F .f32) _ = _
  congr 1
  funext a
  apply Fin.ext
  match a with
  | ⟨0, _⟩ => show win0_0.index t (0 : Fin 3) * 1 + 1 * (y 0).val = (k 0).val; rw [e0, h0, hy0]; omega
  | ⟨1, _⟩ => show win0_0.index t (1 : Fin 3) * 4096 + 1 * (y 1).val = (k 1).val; rw [e1, h1]; omega
  | ⟨2, _⟩ => show win0_0.index t (2 : Fin 3) * 3 + 1 * (y 2).val = (k 2).val; rw [e2, h2]; omega

/-- A key block's entry is the transposed key batch's entry in cloud `t / 8`, column `512 (t % 8)` + the column inside. -/
theorem y_block_apply (c : Dev nD) (t : Fin cfg0.N) (y : S1x3x512.Idx) (k : S8x3x4096.Idx)
    (h0 : (k 0).val = t.val / 8) (h1 : (k 1).val = (y 1).val) (h2 : (k 2).val = 512 * (t.val % 8) + (y 2).val) :
    (blockAt V c 1 t : Vec F S1x3x512 .f32) y = (V c main_v0 : S8x3x4096.Idx → Elt F .f32) k := by
  obtain ⟨-, -, -, e0, e1, e2, -⟩ := block_index t
  have hy0 : (y 0).val = 0 := by have h : (y 0).val < 1 := (y 0).isLt; omega
  unfold blockAt
  rw [View.read_apply]
  show (V c main_v0 : S8x3x4096.Idx → Elt F .f32) _ = _
  congr 1
  funext a
  apply Fin.ext
  match a with
  | ⟨0, _⟩ => show win0_1.index t (0 : Fin 3) * 1 + 1 * (y 0).val = (k 0).val; rw [e0, h0, hy0]; omega
  | ⟨1, _⟩ => show win0_1.index t (1 : Fin 3) * 3 + 1 * (y 1).val = (k 1).val; rw [e1, h1]; omega
  | ⟨2, _⟩ => show win0_1.index t (2 : Fin 3) * 512 + 1 * (y 2).val = (k 2).val; rw [e2, h2]; omega

end Cert.KernelIdeal.Chamfer

end
-- ==== Proof.Spec.lean ====
/-
  The quantity both programs compute, written once as a function of the four argument arrays read coordinate by
  coordinate on the extended reals.

  Two batches of point clouds `x`, `y` (8 clouds of 4096 points in space) give, for every pair of a point `n` of `x`
  and a point `m` of `y` in the same cloud `b`, the squared distance `sqDist x y b n m`, the sum over the three
  coordinates of the squared difference. The spatial term averages, over all 8 · 4096 points, the clamped root
  `root t = √(max t ε)` of the squared distance to the nearest point of the other cloud, in both directions. Two
  batches of feature rows `f`, `g` (8 × 4096 rows of 32 features) give per row the cosine of the two rows, each row
  divided by its Euclidean norm clamped below at `ε`; the feature term is one minus the mean, over the clouds, of the mean
  cosine of a cloud's rows. The loss is the weighted sum of the two terms.

  Every constant is the extended real its single-precision word denotes; none is evaluated here.
-/
import Idealize.ShloMosaic.PureOps.Ideal

noncomputable section

namespace Cert.Chamfer

open Idealize.ShloMosaic

/-- A batch of point clouds: cloud, point, coordinate. -/
abbrev Cloud := Fin 8 → Fin 4096 → Fin 3 → EReal
/-- A batch of feature rows: cloud, row, feature. -/
abbrev Feats := Fin 8 → Fin 4096 → Fin 32 → EReal

/-- The clamp `ε` under both roots and both norms. -/
def eps : EReal := Ideal.ofBits .f32 0x2B8CBCCC#32
/-- The weight of the spatial term. -/
def wSpatial : EReal := Ideal.ofBits .f32 0x3F666666#32
/-- The weight of the feature term. -/
def wFeature : EReal := Ideal.ofBits .f32 0x3DCCCCCD#32
/-- The `1` the mean cosine is subtracted from. -/
def unit : EReal := Ideal.ofBits .f32 0x3F800000#32
/-- The number of points of a batch, 8 · 4096. -/
def nPoints : EReal := Ideal.ofBits .f32 0x47000000#32
/-- The number of rows of a cloud, 4096. -/
def nRows : EReal := Ideal.ofBits .f32 0x45800000#32
/-- The number of clouds, 8. -/
def nClouds : EReal := Ideal.ofBits .f32 0x41000000#32

/-- The squared distance between point `n` of `x` and point `m` of `y` in cloud `b`: the three squared differences,
    added left to right. -/
def sqDist (x y : Cloud) (b : Fin 8) (n m : Fin 4096) : EReal :=
  (x b n 0 - y b m 0) * (x b n 0 - y b m 0) + (x b n 1 - y b m 1) * (x b n 1 - y b m 1)
    + (x b n 2 - y b m 2) * (x b n 2 - y b m 2)

/-- The clamped root: a nondecreasing function of `t`. -/
def root (t : EReal) : EReal := Ideal.sqrt (max t eps)

/-- The squared distance from point `n` of `x` to the nearest point of `y`. -/
def toNearest (x y : Cloud) (b : Fin 8) (n : Fin 4096) : EReal := ⨅ m : Fin 4096, sqDist x y b n m
/-- The squared distance from point `m` of `y` to the nearest point of `x`. -/
def fromNearest (x y : Cloud) (b : Fin 8) (m : Fin 4096) : EReal := ⨅ n : Fin 4096, sqDist x y b n m

/-- The Euclidean norm of a feature row. -/
def norm (f : Feats) (b : Fin 8) (n : Fin 4096) : EReal := Ideal.sqrt (∑ c : Fin 32, f b n c * f b n c)
/-- The cosine of two feature rows, each divided by its norm clamped below at `ε`. -/
def cosine (f g : Feats) (b : Fin 8) (n : Fin 4096) : EReal :=
  ∑ c : Fin 32, Ideal.div (f b n c) (max (norm f b n) eps) * Ideal.div (g b n c) (max (norm g b n) eps)

/-- The spatial term: the two mean clamped roots of nearest squared distances. -/
def spatial (x y : Cloud) : EReal :=
  Ideal.div (∑ b : Fin 8, ∑ n : Fin 4096, root (toNearest x y b n)) nPoints
    + Ideal.div (∑ b : Fin 8, ∑ m : Fin 4096, root (fromNearest x y b m)) nPoints

/-- The mean cosine: over the clouds, of each cloud's mean over its rows. -/
def meanCosine (f g : Feats) : EReal :=
  Ideal.div (∑ b : Fin 8, Ideal.div (∑ n : Fin 4096, cosine f g b n) nRows) nClouds

/-- The loss. -/
def loss (x y : Cloud) (f g : Feats) : EReal :=
  wSpatial * spatial x y + wFeature * (unit - meanCosine f g)

end Cert.Chamfer

end
-- ==== Proof.RefAlgebra.lean ====
/-
  The laws that join the two arrangements of the loss, over the extended reals, with no program in sight.

  * The constants the laws evaluate: the words of 2, 8, 4096 and 32768 denote those numbers, and the clamp `ε` is a positive
    real.
  * The clamped root `t ↦ √(max t ε)` is nondecreasing, so it commutes with the minimum of finitely many values; a
    minimum folded from +∞ over all coordinates is the infimum.
  * For real coordinates, `(|x|² + |y|²) - 2 ⟨x, y⟩ = Σ_d (x_d - y_d)²` in space.
  * For real summands, the mean over the clouds of each cloud's mean over its 4096 rows is the sum over all
    8 · 4096 rows divided by 32768.
  * With real features, the cosine of two rows is a real number (the clamped norms are positive reals).
-/
import proofs.«103882_j3006477107870_2_alg».proof.Proof.Spec

noncomputable section

namespace Cert.Chamfer

open Idealize.ShloMosaic

/-! ## The constants -/

theorem two_word : Ideal.ofBits .f32 0x40000000#32 = ((2 : ℝ) : EReal) := by
  simp [Ideal.ofBits, Ideal.ieee]
  rw [← EReal.coe_mul]; norm_num

theorem nRows_eq : nRows = ((4096 : ℝ) : EReal) := by
  simp [nRows, Ideal.ofBits, Ideal.ieee]
  rw [← EReal.coe_mul]; norm_num

theorem nClouds_eq : nClouds = ((8 : ℝ) : EReal) := by
  simp [nClouds, Ideal.ofBits, Ideal.ieee]
  rw [← EReal.coe_mul]; norm_num

theorem nPoints_eq : nPoints = ((32768 : ℝ) : EReal) := by
  simp [nPoints, Ideal.ofBits, Ideal.ieee]
  rw [← EReal.coe_mul]; norm_num

/-- The clamp is a positive real number. -/
theorem eps_pos : ∃ r : ℝ, 0 < r ∧ eps = (r : EReal) := by
  simp [eps, Ideal.ofBits, Ideal.ieee]
  rw [← EReal.coe_mul]
  exact ⟨_, by positivity, rfl⟩

/-! ## Sums of real numbers -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The clamped root and minima -/

/-- The root of the extended reals is nondecreasing. -/
theorem sqrt_mono : Monotone Ideal.sqrt := by
  intro x y hxy
  induction x using EReal.rec with
  | bot => rw [Ideal.sqrt_bot]; exact bot_le
  | top =>
    have hy : y = ⊤ := top_le_iff.1 hxy
    rw [hy]
  | coe r =>
    induction y using EReal.rec with
    | bot => exact absurd hxy (by simp)
    | top => rw [Ideal.sqrt_top]; exact le_top
    | coe s =>
      have hrs : r ≤ s := EReal.coe_le_coe_iff.1 hxy
      rw [Ideal.sqrt_coe, Ideal.sqrt_coe]
      by_cases hr : r < 0
      · rw [if_pos hr]; exact bot_le
      · rw [if_neg hr, if_neg (by linarith)]
        exact EReal.coe_le_coe_iff.2 (Real.sqrt_le_sqrt hrs)

/-- The clamped root is nondecreasing. -/
theorem root_mono : Monotone root := fun _ _ h => sqrt_mono (max_le_max h le_rfl)

/-- A nondecreasing function commutes with the infimum of finitely many values (one of them is the least). -/
theorem map_iInf_of_mono {ι : Type*} [Finite ι] [Nonempty ι] {f : EReal → EReal} (hf : Monotone f) (d : ι → EReal) :
    f (⨅ i, d i) = ⨅ i, f (d i) := by
  obtain ⟨i0, hi0⟩ := exists_eq_ciInf_of_finite (f := d)
  rw [← hi0]
  exact le_antisymm (le_iInf fun i => hf (hi0 ▸ iInf_le d i)) (iInf_le (fun i => f (d i)) i0)

/-- The clamped root of the least of finitely many values is the least of their clamped roots. -/
theorem root_iInf {ι : Type*} [Finite ι] [Nonempty ι] (d : ι → EReal) : ⨅ i, root (d i) = root (⨅ i, d i) :=
  (map_iInf_of_mono root_mono d).symm

/-- A minimum folded from +∞ over every element of a finite type is the infimum. -/
theorem fold_min_top {ι : Type*} [Fintype ι] (f : ι → EReal) : (Finset.univ : Finset ι).fold min ⊤ f = ⨅ k, f k := by
  rw [← Finset.inf_univ_eq_iInf]
  rfl

/-! ## The squared distance, expanded -/

/-- For real coordinates: the two squared lengths, minus twice the inner product, is the sum of the squared coordinate
    differences (a ring identity of the reals). -/
theorem sqDist_expand (x y : Fin 3 → EReal) (hx : ∀ k, ∃ r : ℝ, x k = (r : EReal)) (hy : ∀ k, ∃ r : ℝ, y k = (r : EReal)) :
    ((0 + ∑ k, x k * x k) + (0 + ∑ k, y k * y k)) - ((2 : ℝ) : EReal) * ∑ k, x k * y k
      = (x 0 - y 0) * (x 0 - y 0) + (x 1 - y 1) * (x 1 - y 1) + (x 2 - y 2) * (x 2 - y 2) := by
  choose a ha using hx
  choose b hb using hy
  simp only [ha, hb, Fin.sum_univ_three, zero_add]
  norm_cast
  ring

/-! ## The mean of the means -/

/-- For real summands: the mean over the 8 clouds of each cloud's mean over its 4096 rows is the sum over all rows
    divided by 32768 = 8 · 4096. -/
theorem mean_of_means (s : Fin 8 → Fin 4096 → EReal) (hs : ∀ b n, ∃ r : ℝ, s b n = (r : EReal)) :
    Ideal.div (∑ b, ∑ n, s b n) nPoints = Ideal.div (∑ b, Ideal.div (∑ n, s b n) nRows) nClouds := by
  choose r hr using hs
  simp only [hr, nPoints_eq, nRows_eq, nClouds_eq, Ideal.div_coe (by norm_num : (32768 : ℝ) ≠ 0),
    Ideal.div_coe (by norm_num : (4096 : ℝ) ≠ 0), Ideal.div_coe (by norm_num : (8 : ℝ) ≠ 0), ← coe_sum, ← EReal.coe_mul]
  rw [← Finset.sum_mul, mul_assoc]
  norm_num

/-! ## The cosine of two rows of real features is real -/

/-- The norm of a row of real features, clamped below at `ε`, is a nonzero real. -/
theorem clampedNorm_real (f : Feats) (hf : ∀ b n c, ∃ r : ℝ, f b n c = (r : EReal)) (b : Fin 8) (n : Fin 4096) :
    ∃ y : ℝ, y ≠ 0 ∧ max (norm f b n) eps = (y : EReal) := by
  choose a ha using hf
  obtain ⟨e, he, hee⟩ := eps_pos
  have hs : (0 : ℝ) ≤ ∑ c, a b n c * a b n c := Finset.sum_nonneg fun c _ => mul_self_nonneg _
  refine ⟨max (Real.sqrt (∑ c, a b n c * a b n c)) e, ne_of_gt (lt_max_of_lt_right he), ?_⟩
  simp only [norm, ha, hee, ← EReal.coe_mul, ← coe_sum]
  rw [Ideal.sqrt_coe, if_neg (not_lt.2 hs)]
  exact (EReal.coe_strictMono.monotone.map_max).symm

/-- With real features, the cosine of two rows is a real number. -/
theorem cosine_real (f g : Feats) (hf : ∀ b n c, ∃ r : ℝ, f b n c = (r : EReal))
    (hg : ∀ b n c, ∃ r : ℝ, g b n c = (r : EReal)) (b : Fin 8) (n : Fin 4096) : ∃ r : ℝ, cosine f g b n = (r : EReal) := by
  obtain ⟨yf, hyf, hf'⟩ := clampedNorm_real f hf b n
  obtain ⟨yg, hyg, hg'⟩ := clampedNorm_real g hg b n
  choose a ha using hf
  choose c hc using hg
  refine ⟨∑ k, (a b n k * (1 / yf)) * (c b n k * (1 / yg)), ?_⟩
  simp only [cosine, hf', hg', Ideal.div_coe hyf, Ideal.div_coe hyg, ha, hc, ← EReal.coe_mul, ← coe_sum]

end Cert.Chamfer

end
-- ==== Proof.IdealPayload.lean ====
/-
  The two kernels' arithmetic, read at an index, on the extended reals.

  The distance kernel holds one cloud's 4096 query points and a tile of 512 keys (stored coordinate-major). Entry
  `(n, j)` of its tile of squared distances is the sum over the three coordinates of the squared difference between
  query point `n` and key `j`. Its row minima (over the keys of the tile, from +∞) are infima over `j`; they are stored
  on the first tile and folded into the stored value by `min` on the later ones. Its column minima (over the query
  points, from +∞) are infima over `n`.

  The cosine kernel holds one cloud's 4096 rows of 32 features of both arrays. It divides each row by its Euclidean norm
  clamped below at `ε`, adds the 32 products of the quotients of each row, adds the 4096 row results and divides by 4096.
-/
import proofs.«103882_j3006477107870_2_alg».proof.Proof.Gen.KernelIdeal.Skeleton
import proofs.«103882_j3006477107870_2_alg».proof.Proof.Spec
import proofs.«103882_j3006477107870_2_alg».proof.Proof.RefAlgebra
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## Layout operations the library does not read: the column forms -/

section Layout
variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## A minimum or a sum along one axis of a matrix -/

/-- The single-precision word with all exponent bits set and no fraction bit denotes +∞. -/
theorem top_word : FloatOps.ofBits (F := Ideal) .f32 0x7F800000#32 = (⊤ : EReal) := by
  simp [Ideal.ofBits, Ideal.ieee]

/-- A minimum along one axis, read at a reduced index: the fold of `min` from the accumulator's value over that
    axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Row `i` of a matrix with `k` put back on the column axis is the entry `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Column `j` of a matrix with `k` put back on the row axis is the entry `(k, j)`. -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- The minimum of a row, from +∞: the infimum of the row's entries. -/
theorem rowMin_apply {a b : ℕ} (p : FVec Ideal ⟨2, ![a, b]⟩ .f32) (h : (⟨2, ![a, b]⟩ : Shape).Reduces [1] (⟨1, ![a]⟩ : Shape))
    (hφ : FKind.Formats .f32) (hacc : (0x7F800000#32 : BitVec FTy.f32.bits) = FKind.minimumf.neutral .f32 hφ) (i : Fin a) :
    multiReduction .minimumf [1] ⟨1, ![a]⟩ p 0x7F800000#32 h hφ hacc (ix1 i) = ⨅ j : Fin b, p (ix2 i j) := by
  refine (multiReduction_minimumf_single p _ h hφ hacc (ix1 i)).trans ?_
  have hf : (p ∘ h.lift (ix1 i)) = fun k => p (ix2 i (⟨k.val, k.isLt⟩ : Fin b)) :=
    funext fun k => congrArg p (lift_row h i k)
  rw [hf, top_word]
  exact Cert.Chamfer.fold_min_top (ι := Fin b) (fun j => p (ix2 i j))

/-- The minimum of a column, from +∞: the infimum of the column's entries. -/
theorem colMin_apply {a b : ℕ} (p : FVec Ideal ⟨2, ![a, b]⟩ .f32) (h : (⟨2, ![a, b]⟩ : Shape).Reduces [0] (⟨1, ![b]⟩ : Shape))
    (hφ : FKind.Formats .f32) (hacc : (0x7F800000#32 : BitVec FTy.f32.bits) = FKind.minimumf.neutral .f32 hφ) (j : Fin b) :
    multiReduction .minimumf [0] ⟨1, ![b]⟩ p 0x7F800000#32 h hφ hacc (ix1 j) = ⨅ n : Fin a, p (ix2 n j) := by
  refine (multiReduction_minimumf_single p _ h hφ hacc (ix1 j)).trans ?_
  have hf : (p ∘ h.lift (ix1 j)) = fun k => p (ix2 (⟨k.val, k.isLt⟩ : Fin a) j) :=
    funext fun k => congrArg p (lift_col h j k)
  rw [hf, top_word]
  exact Cert.Chamfer.fold_min_top (ι := Fin a) (fun n => p (ix2 n j))

/-- The sum of a row: the sum of the row's entries. -/
theorem rowSum_apply {a b : ℕ} (p : FVec Ideal ⟨2, ![a, b]⟩ .f32) (h : (⟨2, ![a, b]⟩ : Shape).Reduces [1] (⟨1, ![a]⟩ : Shape))
    (hφ : FKind.Formats .f32) (hacc : (0x00000000#32 : BitVec FTy.f32.bits) = FKind.add.neutral .f32 hφ) (i : Fin a) :
    multiReduction .add [1] ⟨1, ![a]⟩ p 0x00000000#32 h hφ hacc (ix1 i) = ∑ c : Fin b, p (ix2 i c) := by
  refine (Ideal.multiReduction_add_single p _ h hφ hacc (ix1 i)).trans ?_
  exact Finset.sum_congr rfl fun k _ => congrArg p (lift_row h i k)

/-- The sum of a column: the sum of the column's entries. -/
theorem colSum_apply {a b : ℕ} (p : FVec Ideal ⟨2, ![a, b]⟩ .f32) (h : (⟨2, ![a, b]⟩ : Shape).Reduces [0] (⟨1, ![b]⟩ : Shape))
    (hφ : FKind.Formats .f32) (hacc : (0x00000000#32 : BitVec FTy.f32.bits) = FKind.add.neutral .f32 hφ) (j : Fin b) :
    multiReduction .add [0] ⟨1, ![b]⟩ p 0x00000000#32 h hφ hacc (ix1 j) = ∑ n : Fin a, p (ix2 n j) := by
  refine (Ideal.multiReduction_add_single p _ h hφ hacc (ix1 j)).trans ?_
  exact Finset.sum_congr rfl fun k _ => congrArg p (lift_col h j k)

/-! ## The distance kernel's payloads -/

/-- The squared distances of a tile: entry `(n, j)` is the sum over the three coordinates of the squared difference
    between query point `n` and key `j` (the keys are stored coordinate-major). -/
theorem pay1_apply (x : Vec Ideal S1x4096x3 .f32) (y : Vec Ideal S1x3x512 .f32) (n : Fin 4096) (j : Fin 512) :
    k0_pay1 (F := Ideal) x y (ix2 n j)
      = (x (ix3 0 n 0) - y (ix3 0 0 j)) * (x (ix3 0 n 0) - y (ix3 0 0 j))
        + (x (ix3 0 n 1) - y (ix3 0 1 j)) * (x (ix3 0 n 1) - y (ix3 0 1 j))
        + (x (ix3 0 n 2) - y (ix3 0 2 j)) * (x (ix3 0 n 2) - y (ix3 0 2 j)) := by
  unfold k0_pay1
  simp only [addf_apply, mulf_apply, subf_apply, broadcastTo_a1_ab_apply, broadcastTo_1b_ab_apply, slice2_axis1_eq,
    slice2_axis0_eq, shapeCast_1ab_ab_apply]
  rfl

/-- The row minima of a tile: for query point `n`, the least squared distance to a key of the tile. -/
theorem pay2_apply (x : Vec Ideal S1x4096x3 .f32) (y : Vec Ideal S1x3x512 .f32) (n : Fin 4096) :
    k0_pay2 (F := Ideal) x y (ix2 n 0) = ⨅ j : Fin 512, k0_pay1 (F := Ideal) x y (ix2 n j) := by
  unfold k0_pay2
  generalize k0_pay1 (F := Ideal) x y = p
  exact (shapeCast_a_a1_apply _ _ n 0).trans (rowMin_apply p _ _ _ n)

/-- The row minima, laid out as the output block. -/
theorem pay3_apply (x : Vec Ideal S1x4096x3 .f32) (y : Vec Ideal S1x3x512 .f32) (n : Fin 4096) :
    k0_pay3 (F := Ideal) x y (ix3 0 n 0) = k0_pay2 (F := Ideal) x y (ix2 n 0) := by
  unfold k0_pay3
  exact shapeCast_ab_1ab_apply _ _ 0 n 0

/-- The running minimum: the previous value of the output block against this tile's row minimum. -/
theorem pay4_apply (x : Vec Ideal S1x4096x3 .f32) (y : Vec Ideal S1x3x512 .f32) (prev : Vec Ideal S1x4096x1 .f32) (n : Fin 4096) :
    k0_pay4 (F := Ideal) x y prev (ix3 0 n 0) = min (prev (ix3 0 n 0)) (k0_pay2 (F := Ideal) x y (ix2 n 0)) := by
  unfold k0_pay4
  generalize k0_pay2 (F := Ideal) x y = q
  refine (shapeCast_ab_1ab_apply _ _ 0 n 0).trans ?_
  exact congrArg (fun t => min t (q (ix2 n 0))) (shapeCast_1ab_ab_apply prev _ n 0)

/-- The column minima of a tile: for key `j`, the least squared distance to a query point. -/
theorem pay5_apply (x : Vec Ideal S1x4096x3 .f32) (y : Vec Ideal S1x3x512 .f32) (j : Fin 512) :
    k0_pay5 (F := Ideal) x y (ix3 0 0 j) = ⨅ n : Fin 4096, k0_pay1 (F := Ideal) x y (ix2 n j) := by
  unfold k0_pay5
  generalize k0_pay1 (F := Ideal) x y = p
  exact (shapeCast_ab_1ab_apply _ _ 0 0 j).trans ((shapeCast_a_1a_apply _ _ 0 j).trans (colMin_apply p _ _ _ j))

/-! ## The cosine kernel's payload -/

/-- The clamped norm column: at row `n`, the root of the row's sum of squares, clamped below at `ε`. -/
theorem normCol_apply (v : FVec Ideal S4096x32 .f32) (h : S4096x32.Reduces [1] S4096) (hφ : FKind.Formats .f32)
    (hacc : (0x00000000#32 : BitVec FTy.f32.bits) = FKind.add.neutral .f32 hφ) (hc : S4096.ShapeCasts S4096x1)
    (n : Fin 4096) (u : Fin 1) :
    maximumf (sqrt (shapeCast S4096x1 (multiReduction .add [1] S4096 (mulf v v) 0x00000000#32 h hφ hacc) hc))
        (broadcast S4096x1 (FloatOps.ofBits (F := Ideal) .f32 0x2B8CBCCC#32)) (ix2 n u)
      = max (Ideal.sqrt (∑ c : Fin 32, v (ix2 n c) * v (ix2 n c))) Cert.Chamfer.eps :=
  congrArg (fun t => max (Ideal.sqrt t) Cert.Chamfer.eps)
    ((shapeCast_a_a1_apply _ hc n u).trans (rowSum_apply (mulf v v) h hφ hacc n))

/-- The cosine kernel's result for one cloud: the sum over the cloud's 4096 rows of the cosine of the two feature rows
    (each divided by its clamped norm), divided by 4096. -/
theorem cosPay_apply (f g : Vec Ideal S1x4096x32 .f32) :
    k1_pay1 (F := Ideal) f g (ix3 0 0 0)
      = Ideal.div (∑ n : Fin 4096, ∑ c : Fin 32,
          Ideal.div (f (ix3 0 n c)) (max (Ideal.sqrt (∑ c' : Fin 32, f (ix3 0 n c') * f (ix3 0 n c'))) Cert.Chamfer.eps)
            * Ideal.div (g (ix3 0 n c)) (max (Ideal.sqrt (∑ c' : Fin 32, g (ix3 0 n c') * g (ix3 0 n c'))) Cert.Chamfer.eps))
          Cert.Chamfer.nRows := by
  unfold k1_pay1
  generalize hv1 : shapeCast S4096x32 f shapeCasts_S1x4096x32_S4096x32 = v1
  generalize hv3 : shapeCast S4096x32 g shapeCasts_S1x4096x32_S4096x32 = v3
  have e1 : ∀ (n : Fin 4096) (c : Fin 32), f (ix3 0 n c) = v1 (ix2 n c) := fun n c => by
    rw [← hv1]; exact (shapeCast_1ab_ab_apply f _ n c).symm
  have e3 : ∀ (n : Fin 4096) (c : Fin 32), g (ix3 0 n c) = v3 (ix2 n c) := fun n c => by
    rw [← hv3]; exact (shapeCast_1ab_ab_apply g _ n c).symm
  simp only [e1, e3]
  refine (shapeCast_ab_1ab_apply _ _ 0 0 0).trans ?_
  refine congrArg (fun t => Ideal.div t Cert.Chamfer.nRows) ?_
  refine (shapeCast_a_1a_apply _ _ 0 0).trans ?_
  refine (colSum_apply _ _ _ _ 0).trans ?_
  refine Finset.sum_congr rfl fun n _ => ?_
  refine (shapeCast_a_a1_apply _ _ n 0).trans ?_
  refine (rowSum_apply _ _ _ _ n).trans ?_
  refine Finset.sum_congr rfl fun c _ => ?_
  show Ideal.div (v1 (ix2 n c)) (broadcastTo S4096x32 _ _ (ix2 n c))
    * Ideal.div (v3 (ix2 n c)) (broadcastTo S4096x32 _ _ (ix2 n c)) = _
  rw [broadcastTo_a1_ab_apply, broadcastTo_a1_ab_apply]
  exact congrArg₂ (fun s t => Ideal.div (v1 (ix2 n c)) s * Ideal.div (v3 (ix2 n c)) t)
    (normCol_apply v1 _ _ _ _ n 0) (normCol_apply v3 _ _ _ _ n 0)

end Cert.KernelIdeal.Payload

end
-- ==== Proof.IdealDistValue.lean ====
/-
  What the distance region leaves in its per-key output array, as one function of the buffers the region is entered
  with: at cloud `b` and key column `m`, the minimum over the 4096 query points `n` of the squared distance between query
  `n` of the first cloud batch and column `m` of the transposed key batch. Each grid position writes back its own block —
  512 columns of one cloud's row — and the 64 blocks tile the 8 × 1 × 4096 array.
-/
import proofs.«103882_j3006477107870_2_alg».proof.Proof.IdealDistBlocks
import proofs.«103882_j3006477107870_2_alg».proof.Proof.IdealPayload

set_option maxRecDepth 16384

noncomputable section

namespace Cert.KernelIdeal.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Payload Idealize.ShloMosaic.ValueIdx

variable (V : (c : Dev nD) → (b : Ref sig .tc) → Buf (Elt Ideal) ((c : Thread nD τ).loc b))

theorem zero_offsets : (![0, 0, 0] : Fin 3 → Nat) = fun _ => 0 := funext fun a => by fin_cases a <;> rfl

/-- The first cloud batch as the region finds it: the query points. -/
def queries (c : Dev nD) : S8x4096x3.Idx → EReal := V c main_arg0
/-- The transposed second cloud batch as the region finds it: coordinate `d` of key `m` of cloud `b` at `(b, d, m)`. -/
def keysT (c : Dev nD) : S8x3x4096.Idx → EReal := V c main_v0

/-- The squared distance between query `n` of cloud `b` in the first batch and column `m` of the cloud's transposed keys. -/
def distTo (c : Dev nD) (b : Fin 8) (n m : Fin 4096) : EReal :=
  (queries V c (ix3 b n 0) - keysT V c (ix3 b 0 m))
      * (queries V c (ix3 b n 0) - keysT V c (ix3 b 0 m))
    + (queries V c (ix3 b n 1) - keysT V c (ix3 b 1 m))
      * (queries V c (ix3 b n 1) - keysT V c (ix3 b 1 m))
    + (queries V c (ix3 b n 2) - keysT V c (ix3 b 2 m))
      * (queries V c (ix3 b n 2) - keysT V c (ix3 b 2 m))

/-- For blocks `x`, `y` that are cloud `b`'s queries and its key tile `k`: the body's squared distances are `distTo`. -/
theorem tile_dist (c : Dev nD) (x : Vec Ideal S1x4096x3 .f32) (y : Vec Ideal S1x3x512 .f32) (b k : Fin 8)
    (hx : ∀ (n : Fin 4096) (d : Fin 3), x (ix3 0 n d) = queries V c (ix3 b n d))
    (hy : ∀ (d : Fin 3) (j : Fin 512), y (ix3 0 d j) = keysT V c (ix3 b d ⟨512 * k.val + j.val, by omega⟩))
    (n : Fin 4096) (j : Fin 512) :
    k0_pay1 (F := Ideal) x y (ix2 n j) = distTo V c b n ⟨512 * k.val + j.val, by omega⟩ := by
  rw [pay1_apply, hx, hx, hx, hy, hy, hy]
  rfl

/-- The per-key array the region leaves. -/
def colArr (c : Dev nD) : S8x1x4096.Idx → EReal := fun i => ⨅ n : Fin 4096, distTo V c (i 0) n (i 2)

/-- At such blocks the per-key store's entry `j` is the array's entry at cloud `b`, column `512 k + j`. -/
theorem col_point (c : Dev nD) (x : Vec Ideal S1x4096x3 .f32) (y : Vec Ideal S1x3x512 .f32) (b k : Fin 8)
    (hx : ∀ (n : Fin 4096) (d : Fin 3), x (ix3 0 n d) = queries V c (ix3 b n d))
    (hy : ∀ (d : Fin 3) (j : Fin 512), y (ix3 0 d j) = keysT V c (ix3 b d ⟨512 * k.val + j.val, by omega⟩))
    (j : S1x1x512.Idx) (i : S8x1x4096.Idx) (hi0 : (i 0).val = b.val) (hi2 : (i 2).val = 512 * k.val + (j 2).val) :
    k0_pay5 (F := Ideal) x y j = colArr V c i := by
  obtain ⟨jj, rfl⟩ : ∃ jj : Fin 512, j = ix3 (0 : Fin 1) (0 : Fin 1) jj := ⟨j 2, by
    funext a
    match a with
    | ⟨0, _⟩ => exact Fin.ext (by have h : (j 0).val < 1 := (j 0).isLt; show (j 0).val = 0; omega)
    | ⟨1, _⟩ => exact Fin.ext (by have h : (j 1).val < 1 := (j 1).isLt; show (j 1).val = 0; omega)
    | ⟨2, _⟩ => rfl⟩
  rw [pay5_apply]
  unfold colArr
  refine iInf_congr fun n => ?_
  rw [tile_dist V c x y b k hx hy n jj]
  have e0 : (i 0 : Fin 8) = b := Fin.ext hi0
  have hlt : 512 * k.val + jj.val < 4096 := by have := k.isLt; have := jj.isLt; omega
  have e2 : (i 2 : Fin 4096) = (⟨512 * k.val + jj.val, hlt⟩ : Fin 4096) := Fin.ext hi2
  exact (congrArg₂ (fun (p : Fin 8) (q : Fin 4096) => distTo V c p n q) e0 e2).symm

/-- WHAT POSITION `t` WRITES BACK of the per-key array is block `t` of `colArr`. -/
theorem flushed_col (c : Dev nD) (t : Fin cfg0.N) :
    (dat V c).flushed 3 t = ((cfg0.win 3).blk t).view.read (Elt Ideal) (colArr V c) := by
  obtain ⟨-, -, -, -, -, -, -, -, -, e0, e1, e2⟩ := block_index t
  have hN : t.val < 64 := lt_of_lt_of_eq t.isLt (show cfg0.N = 64 from N_0)
  show (cfg0.win 3).cut (grid0.coords t) ((dat V c).after 3 t) = _
  rw [after_col]
  unfold colMin
  rw [View.canon_unit_zero zero_offsets]
  simp only [View.ld_unit_zero (S := S1x4096x3) zero_offsets, View.ld_unit_zero (S := S1x3x512) zero_offsets]
  funext j
  rw [View.read_apply]
  have hj0 : (j 0).val = 0 := by have h : (j 0).val < 1 := (j 0).isLt; omega
  refine col_point V c _ _ ⟨t.val / 8, by omega⟩ ⟨t.val % 8, by omega⟩
    (fun n d => x_block_apply V c t _ _ rfl rfl rfl) (fun d jj => y_block_apply V c t _ _ rfl rfl rfl) j _ ?_ ?_
  · show win0_3.index t (0 : Fin 3) * 1 + 1 * (j 0).val = t.val / 8
    rw [e0, hj0]; omega
  · show win0_3.index t (2 : Fin 3) * 512 + 1 * (j 2).val = 512 * (t.val % 8) + (j 2).val
    rw [e2]; omega

/-- An index of the per-key array lies in position `t`'s block iff each coordinate lies in the block's range. -/
theorem mem_col_blk (t : Fin cfg0.N) (i : S8x1x4096.Idx) :
    i ∈ ((cfg0.win 3).blk t).view.set ↔ ∀ a : Fin 3, win0_3.index t a * S1x1x512.size a ≤ (i a).val
      ∧ (i a).val < win0_3.index t a * S1x1x512.size a + S1x1x512.size a := by
  show i ∈ ((View.whole main_v1_1).slice (win0_3.rect t)).set ↔ _
  rw [View.set_slice_whole, Rect.mem_set_unit]
  exact Iff.rfl

/-- THE PER-KEY ARRAY after the region: `colArr` of the entry contents. Every index is covered: by the block of its
    cloud and of the tile its column falls in. -/
theorem final_col (c : Dev nD) : (dat V c).arrAt 3 cfg0.N = colArr V c :=
  (dat V c).arrAt_eq_of_cover 3 (colArr V c) (fun t _ => flushed_col V c t) fun i => by
    have h0 : (i 0).val < 8 := (i 0).isLt
    have h1 : (i 1).val < 1 := (i 1).isLt
    have h2 : (i 2).val < 4096 := (i 2).isLt
    have hlt : 8 * (i 0).val + (i 2).val / 512 < cfg0.N := by rw [show cfg0.N = 64 from N_0]; omega
    refine ⟨⟨8 * (i 0).val + (i 2).val / 512, hlt⟩, flush0_3 _, ?_⟩
    obtain ⟨-, -, -, -, -, -, -, -, -, e0, e1, e2⟩ := block_index ⟨8 * (i 0).val + (i 2).val / 512, hlt⟩
    rw [mem_col_blk]
    intro a
    match a with
    | ⟨0, _⟩ =>
      show win0_3.index _ (0 : Fin 3) * 1 ≤ (i 0).val ∧ (i 0).val < win0_3.index _ (0 : Fin 3) * 1 + 1
      rw [e0]; dsimp only; omega
    | ⟨1, _⟩ =>
      show win0_3.index _ (1 : Fin 3) * 1 ≤ (i 1).val ∧ (i 1).val < win0_3.index _ (1 : Fin 3) * 1 + 1
      rw [e1]; omega
    | ⟨2, _⟩ =>
      show win0_3.index _ (2 : Fin 3) * 512 ≤ (i 2).val ∧ (i 2).val < win0_3.index _ (2 : Fin 3) * 512 + 512
      rw [e2]; dsimp only; omega

end Cert.KernelIdeal.Chamfer

end
-- ==== Proof.Arrays.lean ====
/-
  The argument arrays read coordinate by coordinate: an array of shape 8 × 4096 × 3 as a batch of point clouds, one of
  shape 8 × 4096 × 32 as a batch of feature rows; and what it is for an array to hold real numbers only.
-/
import proofs.«103882_j3006477107870_2_alg».proof.Proof.Spec
import Idealize.ShloMosaic.Lib.ValueIdx

noncomputable section

namespace Cert.Chamfer

open Idealize.ShloMosaic Idealize.ShloMosaic.ValueIdx

/-- An 8 × 4096 × 3 array as a batch of point clouds. -/
def cloudOf (a : (⟨3, ![8, 4096, 3]⟩ : Shape).Idx → EReal) : Cloud := fun b n d => a (ix3 b n d)
/-- An 8 × 4096 × 32 array as a batch of feature rows. -/
def featsOf (a : (⟨3, ![8, 4096, 32]⟩ : Shape).Idx → EReal) : Feats := fun b n c => a (ix3 b n c)

/-- Every entry of the array is a real number (neither infinity). -/
def Real' {S : Shape} (a : S.Idx → EReal) : Prop := ∀ i, ∃ r : ℝ, a i = (r : EReal)

end Cert.Chamfer

end
-- ==== Proof.IdealEntry.lean ====
/-
  The buffers the distance region is entered with, in terms of the launch memory: the query array is the first cloud
  batch as launched (the first host stretch does not write it), and the key array is the second cloud batch transposed —
  coordinate `d` of key `k` of cloud `b` sits at `(b, d, k)`. So the squared distance the region computes between query
  `n` and key column `k` of cloud `b` is the squared distance between point `n` of the first batch and point `k` of the second.
-/
import proofs.«103882_j3006477107870_2_alg».proof.Proof.IdealEnds
import proofs.«103882_j3006477107870_2_alg».proof.Proof.IdealDistValue
import proofs.«103882_j3006477107870_2_alg».proof.Proof.Arrays
import Idealize.ShloMosaic.Lib.ValueLayout
import Idealize.ShloMosaic.Lib.StableHlo.Run

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable (m : (ℓ : Loc nD τ sig) → Buf (Elt Ideal) ℓ) (ρ : Dev nD → PrngReg)

/-- The launch memory's argument arrays, as extended-real arrays. -/
def arg0 (c : Dev nD) : S8x4096x3.Idx → EReal := m ((c : Thread nD τ).loc main_arg0)
def arg1 (c : Dev nD) : S8x4096x3.Idx → EReal := m ((c : Thread nD τ).loc main_arg1)
def arg2 (c : Dev nD) : S8x4096x32.Idx → EReal := m ((c : Thread nD τ).loc main_arg2)
def arg3 (c : Dev nD) : S8x4096x32.Idx → EReal := m ((c : Thread nD τ).loc main_arg3)

theorem entry_queries (c : Dev nD) : Chamfer.queries (E1 m ρ) c = arg0 m c :=
  StableHlo.after_of_writes_sub hostOps0 _ hostOps0_writes (r := main_arg0) (by decide)

theorem entry_keys (c : Dev nD) (b : Fin 8) (d : Fin 3) (k : Fin 4096) :
    Chamfer.keysT (E1 m ρ) c (ix3 b d k) = arg1 m c (ix3 b k d) := by
  have e : Chamfer.keysT (E1 m ρ) c
      = transpose S8x3x4096 [0, 2, 1] (arg1 m c) Facts₀.transposes_S8x4096x3_S8x3x4096_0_2_1 := by
    unfold Chamfer.keysT arg1
    dsimp only [E1, B1, hostOps0]
    after_results
  rw [e]
  exact transpose_ix3_021_apply _ _ b d k

/-- At the region's entry the body's squared distance is the squared distance of the two launched clouds' points. -/
theorem entry_dist (c : Dev nD) (b : Fin 8) (n k : Fin 4096) :
    Chamfer.distTo (E1 m ρ) c b n k = Cert.Chamfer.sqDist (Cert.Chamfer.cloudOf (arg0 m c)) (Cert.Chamfer.cloudOf (arg1 m c)) b n k := by
  unfold Chamfer.distTo Cert.Chamfer.sqDist Cert.Chamfer.cloudOf
  rw [entry_queries, entry_keys, entry_keys, entry_keys]

end Cert.KernelIdeal.Whole

end
-- ==== Proof.IdealSums.lean ====
/-
  Re-indexing of sums and of a running minimum, with no program in sight.

  * A sum over the indices of an array with a unit axis is the iterated sum over its other coordinates: over the
    8 × 4096 rows of an 8 × 4096 × 1 array, the 8 × 4096 columns of an 8 × 1 × 4096 array, the 8 entries of an 8 × 1 × 1 array.
  * A minimum over 4096 values taken tile by tile, each tile of 512 values folded in by `min`, is, after the eighth
    tile, the infimum of all 4096 values: at every step the running value is the greatest lower bound of the values seen
    so far.
-/
import proofs.«103882_j3006477107870_2_alg».proof.Proof.Spec
import proofs.«103882_j3006477107870_2_alg».proof.Proof.RefAlgebra
import Idealize.ShloMosaic.Lib.ValueIdx

noncomputable section

namespace Cert.Chamfer

open Idealize.ShloMosaic Idealize.ShloMosaic.ValueIdx

/-! ## Sums over arrays with unit axes -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Over an 8 × 4096 × 1 array: the sum over the clouds and rows. -/
theorem sum_rows (g : (⟨3, ![8, 4096, 1]⟩ : Shape).Idx → EReal) : ∑ i, g i = ∑ b : Fin 8, ∑ n : Fin 4096, g (ix3 b n 0) := by
  rw [sum_idx3]
  exact Finset.sum_congr rfl fun b _ => Finset.sum_congr rfl fun n _ => Fin.sum_univ_one _

/-- Over an 8 × 1 × 4096 array: the sum over the clouds and columns. -/
theorem sum_cols (g : (⟨3, ![8, 1, 4096]⟩ : Shape).Idx → EReal) : ∑ i, g i = ∑ b : Fin 8, ∑ m : Fin 4096, g (ix3 b 0 m) := by
  rw [sum_idx3]
  exact Finset.sum_congr rfl fun b _ => Fin.sum_univ_one _

/-- Over an 8 × 1 × 1 array: the sum over the clouds. -/
theorem sum_clouds (g : (⟨3, ![8, 1, 1]⟩ : Shape).Idx → EReal) : ∑ i, g i = ∑ b : Fin 8, g (ix3 b 0 0) := by
  rw [sum_idx3]
  exact Finset.sum_congr rfl fun b _ => (Fin.sum_univ_one _).trans (Fin.sum_univ_one _)

/-! ## The running minimum over eight tiles of 512 -/

/-- The least of the values in the first `K` tiles of 512 (of all 4096 values when `K ≥ 8`; +∞ when `K = 0`). -/
def minUpTo (f : Fin 4096 → EReal) (K : ℕ) : EReal := ⨅ m : Fin 4096, if m.val < 512 * K then f m else ⊤

/-- A bound is below the running minimum exactly when it is below every value of the first `K` tiles. -/
theorem le_minUpTo_iff (f : Fin 4096 → EReal) (K : ℕ) (z : EReal) :
    z ≤ minUpTo f K ↔ ∀ m : Fin 4096, m.val < 512 * K → z ≤ f m := by
  unfold minUpTo
  rw [le_iInf_iff]
  constructor
  · intro h m hm
    have := h m
    rwa [if_pos hm] at this
  · intro h m
    by_cases hm : m.val < 512 * K
    · rw [if_pos hm]; exact h m hm
    · rw [if_neg hm]; exact le_top

/-- Before any tile, the running minimum is +∞. -/
theorem minUpTo_zero (f : Fin 4096 → EReal) : minUpTo f 0 = ⊤ :=
  top_le_iff.1 ((le_minUpTo_iff f 0 ⊤).2 fun m hm => absurd hm (by omega))

/-- A further tile's least value joins the running minimum by `min`. -/
theorem minUpTo_succ (f : Fin 4096 → EReal) (K : ℕ) (hK : K < 8) :
    minUpTo f (K + 1) = min (minUpTo f K) (⨅ j : Fin 512, f ⟨512 * K + j.val, by have := j.isLt; omega⟩) := by
  refine eq_of_forall_le_iff fun z => ?_
  rw [le_min_iff, le_minUpTo_iff, le_minUpTo_iff, le_iInf_iff]
  constructor
  · intro h
    exact ⟨fun m hm => h m (by omega), fun j => h _ (by have := j.isLt; show 512 * K + j.val < 512 * (K + 1); omega)⟩
  · rintro ⟨h1, h2⟩ m hm
    by_cases hlt : m.val < 512 * K
    · exact h1 m hlt
    · have h3 : z ≤ f ⟨512 * K + (m.val - 512 * K), by have := m.isLt; omega⟩ := h2 ⟨m.val - 512 * K, by omega⟩
      have e : (⟨512 * K + (m.val - 512 * K), by have := m.isLt; omega⟩ : Fin 4096) = m :=
        Fin.ext (by show 512 * K + (m.val - 512 * K) = m.val; omega)
      rw [e] at h3
      exact h3

/-- After the eighth tile the running minimum is the least of all 4096 values. -/
theorem minUpTo_all (f : Fin 4096 → EReal) : minUpTo f 8 = ⨅ m : Fin 4096, f m :=
  iInf_congr fun m => if_pos (by have := m.isLt; omega)

end Cert.Chamfer

end
-- ==== Proof.IdealNearValue.lean ====
/-
  What the distance region leaves in its per-query output array. The block of a cloud — its 4096 queries — is shared by
  the cloud's eight key tiles and written back after the last. After the body at grid position `t` (cloud `t / 8`, tile
  `t % 8`) the staging buffer holds, for each query, the minimum of its squared distances to the keys of the cloud's tiles
  `0 … t % 8`: the first tile stores its own minimum, each later tile joins its minimum to what the buffer held. After
  the eighth tile that is the minimum over all 4096 keys, and this is what is written back.
-/
import proofs.«103882_j3006477107870_2_alg».proof.Proof.IdealDistValue
import proofs.«103882_j3006477107870_2_alg».proof.Proof.IdealSums

set_option maxRecDepth 16384

noncomputable section

namespace Cert.KernelIdeal.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Payload Idealize.ShloMosaic.ValueIdx
open Cert.Chamfer (minUpTo minUpTo_zero minUpTo_succ minUpTo_all)

variable (V : (c : Dev nD) → (b : Ref sig .tc) → Buf (Elt Ideal) ((c : Thread nD τ).loc b))

/-- The cloud and the key tile of a grid position. -/
def cloudAt (t : ℕ) : Fin 8 := ⟨t / 8 % 8, Nat.mod_lt _ (by norm_num)⟩
def tileAt (t : ℕ) : Fin 8 := ⟨t % 8, Nat.mod_lt _ (by norm_num)⟩

/-- The blocks at a position are its cloud's queries and its tile's keys. -/
theorem x_at (c : Dev nD) (t : Fin cfg0.N) (n : Fin 4096) (d : Fin 3) :
    (blockAt V c 0 t : Vec Ideal S1x4096x3 .f32) (ix3 0 n d) = queries V c (ix3 (cloudAt t.val) n d) := by
  have hN : t.val < 64 := lt_of_lt_of_eq t.isLt (show cfg0.N = 64 from N_0)
  exact x_block_apply V c t _ _ (by show t.val / 8 % 8 = t.val / 8; omega) rfl rfl
theorem y_at (c : Dev nD) (t : Fin cfg0.N) (d : Fin 3) (j : Fin 512) :
    (blockAt V c 1 t : Vec Ideal S1x3x512 .f32) (ix3 0 d j)
      = keysT V c (ix3 (cloudAt t.val) d ⟨512 * (tileAt t.val).val + j.val, by have := (tileAt t.val).isLt; have := j.isLt; omega⟩) := by
  have hN : t.val < 64 := lt_of_lt_of_eq t.isLt (show cfg0.N = 64 from N_0)
  exact y_block_apply V c t _ _ (by show t.val / 8 % 8 = t.val / 8; omega) rfl rfl

/-- A tile's minimum for query `n`: over the tile's 512 keys. -/
theorem tile_min (c : Dev nD) (x : Vec Ideal S1x4096x3 .f32) (y : Vec Ideal S1x3x512 .f32) (b k : Fin 8)
    (hx : ∀ (n : Fin 4096) (d : Fin 3), x (ix3 0 n d) = queries V c (ix3 b n d))
    (hy : ∀ (d : Fin 3) (j : Fin 512), y (ix3 0 d j) = keysT V c (ix3 b d ⟨512 * k.val + j.val, by omega⟩))
    (n : Fin 4096) :
    k0_pay2 (F := Ideal) x y (ix2 n 0) = ⨅ j : Fin 512, distTo V c b n ⟨512 * k.val + j.val, by have := j.isLt; omega⟩ := by
  rw [pay2_apply]
  exact iInf_congr fun j => tile_dist V c x y b k hx hy n j

/-- What a cloud's first tile leaves for query `n`. -/
theorem first_value (x : Vec Ideal S1x4096x3 .f32) (y : Vec Ideal S1x3x512 .f32) (n : Fin 4096) :
    nearFirst (F := Ideal) x y (ix3 0 n 0) = k0_pay2 (F := Ideal) x y (ix2 n 0) := by
  unfold nearFirst
  rw [View.canon_unit_zero zero_offsets]
  simp only [View.ld_unit_zero (S := S1x4096x3) zero_offsets, View.ld_unit_zero (S := S1x3x512) zero_offsets]
  exact pay3_apply x y n

/-- What a later tile leaves for query `n`: the minimum of what the buffer held and the tile's. -/
theorem later_value (x : Vec Ideal S1x4096x3 .f32) (y : Vec Ideal S1x3x512 .f32) (prev : Vec Ideal S1x4096x1 .f32) (n : Fin 4096) :
    nearLater (F := Ideal) x y prev (ix3 0 n 0) = min (prev (ix3 0 n 0)) (k0_pay2 (F := Ideal) x y (ix2 n 0)) := by
  unfold nearLater
  rw [View.canon_unit_zero zero_offsets]
  simp only [View.ld_unit_zero (S := S1x4096x3) zero_offsets, View.ld_unit_zero (S := S1x3x512) zero_offsets,
    View.ld_unit_zero (S := S1x4096x1) zero_offsets]
  exact pay4_apply x y prev n

/-- THE INVARIANT of the running minimum: after position `t`, for query `n`, the minimum over the cloud's tiles `0 … t % 8`. -/
theorem nearAt_eq (c : Dev nD) (n : Fin 4096) : ∀ (t : ℕ) (ht : t < cfg0.N),
    nearAt V c t ht (ix3 0 n 0) = minUpTo (fun m => distTo V c (cloudAt t) n m) (t % 8 + 1) := by
  intro t
  induction t with
  | zero =>
    intro ht
    rw [show nearAt V c 0 ht = nearFirst (blockAt V c 0 ⟨0, ht⟩) (blockAt V c 1 ⟨0, ht⟩) from rfl, first_value,
      tile_min V c _ _ (cloudAt 0) (tileAt 0) (x_at V c ⟨0, ht⟩) (y_at V c ⟨0, ht⟩) n,
      show 0 % 8 + 1 = 0 + 1 from rfl, minUpTo_succ _ 0 (by norm_num), minUpTo_zero, top_inf_eq]
    rfl
  | succ t ih =>
    intro ht
    have hN : t + 1 < 64 := lt_of_lt_of_eq ht (show cfg0.N = 64 from N_0)
    by_cases h : (t + 1) % 8 = 0
    · rw [show nearAt V c (t + 1) ht = nearFirst (blockAt V c 0 ⟨t + 1, ht⟩) (blockAt V c 1 ⟨t + 1, ht⟩) from if_pos h, first_value,
        tile_min V c _ _ (cloudAt (t + 1)) (tileAt (t + 1)) (x_at V c ⟨t + 1, ht⟩) (y_at V c ⟨t + 1, ht⟩) n,
        show (t + 1) % 8 + 1 = 0 + 1 from by rw [h], minUpTo_succ _ 0 (by norm_num), minUpTo_zero, top_inf_eq]
      refine iInf_congr fun j => ?_
      exact congrArg (distTo V c (cloudAt (t + 1)) n) (Fin.ext (by show 512 * ((t + 1) % 8) + j.val = 512 * 0 + j.val; rw [h]))
    · have hc : cloudAt (t + 1) = cloudAt t := Fin.ext (by show (t + 1) / 8 % 8 = t / 8 % 8; omega)
      have hk : (t + 1) % 8 = t % 8 + 1 := by omega
      rw [show nearAt V c (t + 1) ht = nearLater (blockAt V c 0 ⟨t + 1, ht⟩) (blockAt V c 1 ⟨t + 1, ht⟩) (nearAt V c t (Nat.lt_of_succ_lt ht)) from if_neg h,
        later_value, ih (Nat.lt_of_succ_lt ht),
        tile_min V c _ _ (cloudAt (t + 1)) (tileAt (t + 1)) (x_at V c ⟨t + 1, ht⟩) (y_at V c ⟨t + 1, ht⟩) n,
        hc, show (t + 1) % 8 + 1 = (t % 8 + 1) + 1 from by rw [hk], minUpTo_succ _ (t % 8 + 1) (by omega)]
      congr 1
      refine iInf_congr fun j => ?_
      exact congrArg (distTo V c (cloudAt t) n) (Fin.ext (by show 512 * ((t + 1) % 8) + j.val = 512 * (t % 8 + 1) + j.val; rw [hk]))

/-- The per-query array the region leaves. -/
def nearArr (c : Dev nD) : S8x4096x1.Idx → EReal := fun i => ⨅ m : Fin 4096, distTo V c (i 0) (i 1) m

/-- WHAT A WRITE-BACK WRITES: after a cloud's last tile, block `t` of `nearArr`. -/
theorem flushed_near (c : Dev nD) (t : Fin cfg0.N) (hf : (cfg0.win 2).flush t = true) :
    (dat V c).flushed 2 t = ((cfg0.win 2).blk t).view.read (Elt Ideal) (nearArr V c) := by
  obtain ⟨-, -, -, -, -, -, e0, e1, e2, -⟩ := block_index t
  have hN : t.val < 64 := lt_of_lt_of_eq t.isLt (show cfg0.N = 64 from N_0)
  have h7 : t.val % 8 = 7 := (flush0_2 t).mp hf
  show (cfg0.win 2).cut (grid0.coords t) ((dat V c).after 2 t) = _
  rw [after_near]
  funext j
  rw [View.read_apply]
  obtain ⟨n, rfl⟩ : ∃ n : Fin 4096, j = ix3 (0 : Fin 1) n (0 : Fin 1) := ⟨j 1, by
    funext a
    match a with
    | ⟨0, _⟩ => exact Fin.ext (by have h : (j 0).val < 1 := (j 0).isLt; show (j 0).val = 0; omega)
    | ⟨1, _⟩ => rfl
    | ⟨2, _⟩ => exact Fin.ext (by have h : (j 2).val < 1 := (j 2).isLt; show (j 2).val = 0; omega)⟩
  show nearAt V c t.val t.isLt (ix3 0 n 0) = nearArr V c _
  rw [nearAt_eq V c n t.val t.isLt, show t.val % 8 + 1 = 8 from by rw [h7], minUpTo_all]
  unfold nearArr
  refine iInf_congr fun m => ?_
  have a0 : cloudAt t.val = ((((cfg0.win 2).blk t).view.emb (ix3 (0 : Fin 1) n (0 : Fin 1))) 0 : Fin 8) :=
    Fin.ext (by show t.val / 8 % 8 = win0_2.index t (0 : Fin 3) * 1 + 1 * 0; rw [e0]; omega)
  have a1 : n = ((((cfg0.win 2).blk t).view.emb (ix3 (0 : Fin 1) n (0 : Fin 1))) 1 : Fin 4096) :=
    Fin.ext (by show n.val = win0_2.index t (1 : Fin 3) * 4096 + 1 * n.val; rw [e1]; omega)
  exact congrArg₂ (fun (p : Fin 8) (q : Fin 4096) => distTo V c p q m) a0 a1

theorem mem_near_blk (t : Fin cfg0.N) (i : S8x4096x1.Idx) :
    i ∈ ((cfg0.win 2).blk t).view.set ↔ ∀ a : Fin 3, win0_2.index t a * S1x4096x1.size a ≤ (i a).val
      ∧ (i a).val < win0_2.index t a * S1x4096x1.size a + S1x4096x1.size a := by
  show i ∈ ((View.whole main_v1_0).slice (win0_2.rect t)).set ↔ _
  rw [View.set_slice_whole, Rect.mem_set_unit]
  exact Iff.rfl

/-- THE PER-QUERY ARRAY after the region: every index is covered by its cloud's write-back, after the last tile. -/
theorem final_near (c : Dev nD) : (dat V c).arrAt 2 cfg0.N = nearArr V c :=
  (dat V c).arrAt_eq_of_cover 2 (nearArr V c) (fun t hf => flushed_near V c t hf) fun i => by
    have h0 : (i 0).val < 8 := (i 0).isLt
    have h1 : (i 1).val < 4096 := (i 1).isLt
    have h2 : (i 2).val < 1 := (i 2).isLt
    have hlt : 8 * (i 0).val + 7 < cfg0.N := by rw [show cfg0.N = 64 from N_0]; omega
    refine ⟨⟨8 * (i 0).val + 7, hlt⟩, (flush0_2 _).mpr (by show (8 * (i 0).val + 7) % 8 = 7; omega), ?_⟩
    obtain ⟨-, -, -, -, -, -, e0, e1, e2, -⟩ := block_index ⟨8 * (i 0).val + 7, hlt⟩
    rw [mem_near_blk]
    intro a
    match a with
    | ⟨0, _⟩ =>
      show win0_2.index _ (0 : Fin 3) * 1 ≤ (i 0).val ∧ (i 0).val < win0_2.index _ (0 : Fin 3) * 1 + 1
      rw [e0]; dsimp only; omega
    | ⟨1, _⟩ =>
      show win0_2.index _ (1 : Fin 3) * 4096 ≤ (i 1).val ∧ (i 1).val < win0_2.index _ (1 : Fin 3) * 4096 + 4096
      rw [e1]; omega
    | ⟨2, _⟩ =>
      show win0_2.index _ (2 : Fin 3) * 1 ≤ (i 2).val ∧ (i 2).val < win0_2.index _ (2 : Fin 3) * 1 + 1
      rw [e2]; omega

end Cert.KernelIdeal.Chamfer

end
-- ==== Proof.IdealCosValue.lean ====
/-
  The cosine region's output array after the run, index by index.

  The region's grid has one point per cloud; point `t` reads cloud `t`'s two 4096 × 32 blocks of features and writes
  entry `t` of the 8 × 1 × 1 output. A block's element sits, in its array, at block index × block size + its coordinate
  inside the block, and the printed block indices at point `t` are `(t, 0, 0)` for all three windows. So what point `t`
  writes back is the block at `t` of ONE array: at cloud `b`, the sum over the cloud's 4096 rows of the cosine of the two
  feature rows, divided by 4096. Every point writes back and the eight one-entry blocks cover the output, so the output
  ends holding that array.
-/
import proofs.«103882_j3006477107870_2_alg».proof.Proof.IdealCosine
import proofs.«103882_j3006477107870_2_alg».proof.Proof.IdealPayload
import proofs.«103882_j3006477107870_2_alg».proof.Proof.Arrays
import Idealize.ShloMosaic.Lib.Pipeline.Value

set_option maxRecDepth 16384

noncomputable section

namespace Cert.KernelIdeal.Cosine

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-buffer access, as a function. -/
theorem hz : (![0, 0, 0] : Fin 3 → Nat) = fun _ => 0 := funext fun a => by fin_cases a <;> rfl

/-- The printed block indices, decided over the eight grid points: every window's block at point `t` is `(t, 0, 0)`. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

/-- The cloud a grid point works on. -/
abbrev cloudAt (t : Fin cfg1.N) : Fin 8 := ⟨t.val, Nat.lt_of_lt_of_eq t.isLt N_1⟩

/-- The first feature array's block at point `t` is cloud `t`'s rows of the array. -/
theorem fblock_apply (c : Dev nD) (t : Fin cfg1.N) (n : Fin 4096) (k : Fin 32) :
    (blockAt V c 0 t : Vec Ideal S1x4096x32 .f32) (ix3 0 n k) = Cert.Chamfer.featsOf (V c main_arg2) (cloudAt t) n k := by
  obtain ⟨e0, e1, e2, -⟩ := idx_facts t
  unfold blockAt
  rw [View.read_apply]
  show V c main_arg2 _ = V c main_arg2 _
  congr 1
  funext a
  apply Fin.ext
  match a with
  | ⟨0, _⟩ => show win1_0.index t (0 : Fin 3) * 1 + 1 * 0 = t.val; omega
  | ⟨1, _⟩ => show win1_0.index t (1 : Fin 3) * 4096 + 1 * n.val = n.val; omega
  | ⟨2, _⟩ => show win1_0.index t (2 : Fin 3) * 32 + 1 * k.val = k.val; omega

/-- The second feature array's block at point `t` is cloud `t`'s rows of the array. -/
theorem gblock_apply (c : Dev nD) (t : Fin cfg1.N) (n : Fin 4096) (k : Fin 32) :
    (blockAt V c 1 t : Vec Ideal S1x4096x32 .f32) (ix3 0 n k) = Cert.Chamfer.featsOf (V c main_arg3) (cloudAt t) n k := by
  obtain ⟨-, -, -, e0, e1, e2, -⟩ := idx_facts t
  unfold blockAt
  rw [View.read_apply]
  show V c main_arg3 _ = V c main_arg3 _
  congr 1
  funext a
  apply Fin.ext
  match a with
  | ⟨0, _⟩ => show win1_1.index t (0 : Fin 3) * 1 + 1 * 0 = t.val; omega
  | ⟨1, _⟩ => show win1_1.index t (1 : Fin 3) * 4096 + 1 * n.val = n.val; omega
  | ⟨2, _⟩ => show win1_1.index t (2 : Fin 3) * 32 + 1 * k.val = k.val; omega

/-- The array the region leaves: at cloud `b`, the mean over the cloud's rows of the cosine of the two feature rows. -/
def meanArr (c : Dev nD) : S8x1x1.Idx → EReal := fun i =>
  Ideal.div (∑ n : Fin 4096, Cert.Chamfer.cosine (Cert.Chamfer.featsOf (V c main_arg2)) (Cert.Chamfer.featsOf (V c main_arg3)) (i 0) n)
    Cert.Chamfer.nRows

/-- What point `t` writes back is the block at `t` of that array: the body's one entry is the cosine payload of the two
    blocks read, and the block's one element sits at cloud `t`. -/
theorem flushed_eq (c : Dev nD) (t : Fin cfg1.N) :
    (dat V c).flushed 2 t = ((cfg1.win 2).blk t).view.read (Elt Ideal) (meanArr V c) := by
  show (cfg1.win 2).cut (grid1.coords t) ((dat V c).after 2 t) = _
  rw [after_mean]
  unfold meanOf
  rw [View.canon_unit_zero hz]
  simp only [View.ld_unit_zero (S := S1x4096x32) hz]
  obtain ⟨-, -, -, -, -, -, e0, e1, e2⟩ := idx_facts t
  funext j
  have hj : (j : S1x1x1.Idx) = ix3 0 0 0 := by
    funext a; apply Fin.ext
    match a with
    | ⟨0, _⟩ => have h : (j 0).val < 1 := (j 0).isLt; show (j 0).val = 0; omega
    | ⟨1, _⟩ => have h : (j 1).val < 1 := (j 1).isLt; show (j 1).val = 0; omega
    | ⟨2, _⟩ => have h : (j 2).val < 1 := (j 2).isLt; show (j 2).val = 0; omega
  show k1_pay1 (F := Ideal) (blockAt V c 0 t) (blockAt V c 1 t) j = meanArr V c (((cfg1.win 2).blk t).view.emb j)
  refine (congrArg (k1_pay1 (F := Ideal) (blockAt V c 0 t) (blockAt V c 1 t)) hj).trans ?_
  refine (Cert.KernelIdeal.Payload.cosPay_apply _ _).trans ?_
  have hb : ((((cfg1.win 2).blk t).view.emb j) 0 : Fin 8) = cloudAt t :=
    Fin.ext (by show win1_2.index t (0 : Fin 3) * 1 + 1 * (j 0).val = t.val; have h : (j 0).val < 1 := (j 0).isLt; omega)
  unfold meanArr
  rw [hb]
  simp only [fblock_apply, gblock_apply]
  rfl

/-- An index of the output is in point `t`'s block iff each coordinate is in the block's range on its axis. -/
theorem mem_blk (t : Fin cfg1.N) (i : S8x1x1.Idx) :
    i ∈ ((cfg1.win 2).blk t).view.set
      ↔ ∀ a : Fin 3, win1_2.index t a * S1x1x1.size a ≤ (i a).val ∧ (i a).val < win1_2.index t a * S1x1x1.size a + S1x1x1.size a := by
  show i ∈ ((View.whole main_v13).slice (win1_2.rect t)).set ↔ _
  rw [View.set_slice_whole, Rect.mem_set_unit]
  exact Iff.rfl

/-- Every index of the output is in the block of the point of its cloud. -/
theorem cover (i : S8x1x1.Idx) : ∃ t : Fin cfg1.N, (cfg1.win 2).flush t = true ∧ i ∈ ((cfg1.win 2).blk t).view.set := by
  have h0 : (i 0).val < 8 := (i 0).isLt
  have h1 : (i 1).val < 1 := (i 1).isLt
  have h2 : (i 2).val < 1 := (i 2).isLt
  let t : Fin cfg1.N := ⟨(i 0).val, Nat.lt_of_lt_of_eq h0 N_1.symm⟩
  obtain ⟨-, -, -, -, -, -, e0, e1, e2⟩ := idx_facts t
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1
              rw [e0]; show (i 0).val * 1 ≤ (i 0).val ∧ (i 0).val < (i 0).val * 1 + 1; omega
  | ⟨1, _⟩ => show win1_2.index t (1 : Fin 3) * 1 ≤ (i 1).val ∧ (i 1).val < win1_2.index t (1 : Fin 3) * 1 + 1; omega
  | ⟨2, _⟩ => show win1_2.index t (2 : Fin 3) * 1 ≤ (i 2).val ∧ (i 2).val < win1_2.index t (2 : Fin 3) * 1 + 1; omega

/-- The output array after the run. -/
theorem final_mean (c : Dev nD) :
    (dat V c).arrAt 2 cfg1.N = fun i => Ideal.div (∑ n : Fin 4096, Cert.Chamfer.cosine (Cert.Chamfer.featsOf (V c main_arg2))
      (Cert.Chamfer.featsOf (V c main_arg3)) (i 0) n) Cert.Chamfer.nRows :=
  (dat V c).arrAt_eq_of_cover 2 (meanArr V c) (fun t _ => flushed_eq V c t) cover

end Cert.KernelIdeal.Cosine

end
-- ==== Proof.IdealTailDefs.lean ====
/-
  The two host stretches after the kernel regions, each as ONE function of the arrays it reads, at the ideal values.
  The second stretch turns the distance region's two arrays of minimal squared distances into the spatial term: the
  clamped root of every entry, the total of each array over the number of points, the two quotients added. The last
  stretch turns the cosine region's per-cloud means into their mean over the clouds and forms the weighted sum.
-/
import proofs.«103882_j3006477107870_2_alg».proof.Proof.Gen.KernelIdeal
import Idealize.ShloMosaic.PureOps.Ideal

noncomputable section

namespace Cert.KernelIdeal.Whole

open Idealize.ShloMosaic Cert.KernelIdeal Cert.KernelIdeal.Facts₀

/-- The spatial term from the per-query array `p` and the per-key array `q` of minimal squared distances. -/
def spatialTerm (p : FVec Ideal S8x4096x1 .f32) (q : FVec Ideal S8x1x4096 .f32) : FVec Ideal S_ .f32 :=
  addf
    (Host.divf
      (Host.reduceAdd
        (Host.sqrt (maximumf p (broadcastInDim S8x4096x1 ![] bcast_S_S8x4096x1 (constant (F := Ideal) S_ .f32 0x2B8CBCCC#32))))
        (constant (F := Ideal) S_ .f32 0x00000000#32) reducesTo_S8x4096x1_S_d0_1_2 h_S_)
      (constant (F := Ideal) S_ .f32 0x47000000#32))
    (Host.divf
      (Host.reduceAdd
        (Host.sqrt (maximumf q (broadcastInDim S8x1x4096 ![] bcast_S_S8x1x4096 (constant (F := Ideal) S_ .f32 0x2B8CBCCC#32))))
        (constant (F := Ideal) S_ .f32 0x00000000#32) reducesTo_S8x1x4096_S_d0_1_2 h_S_)
      (constant (F := Ideal) S_ .f32 0x47000000#32))

/-- The loss from the spatial term `s` and the per-cloud mean cosines `v`. -/
def lossTerm (v : FVec Ideal S8x1x1 .f32) (s : FVec Ideal S_ .f32) : FVec Ideal S_ .f32 :=
  addf
    (mulf (constant (F := Ideal) S_ .f32 0x3F666666#32) s)
    (mulf (constant (F := Ideal) S_ .f32 0x3DCCCCCD#32)
      (subf (constant (F := Ideal) S_ .f32 0x3F800000#32)
        (Host.divf
          (Host.reduceAdd v (constant (F := Ideal) S_ .f32 0x00000000#32) reducesTo_S8x1x1_S_d0_1_2 h_S_)
          (constant (F := Ideal) S_ .f32 0x41000000#32))))

end Cert.KernelIdeal.Whole

end
-- ==== Proof.IdealTailValue.lean ====
/-
  The two host stretches after the kernel regions, evaluated.

  The spatial term: each of the two arrays of minimal squared distances goes through the clamped root entry by entry, is
  added up over all its entries from zero — the sum over the clouds and the points — and divided by the number of points;
  the two quotients are added. The loss: the per-cloud mean cosines are added up over the eight clouds and divided by
  eight; one minus that mean, and the spatial term, enter the weighted sum.
-/
import proofs.«103882_j3006477107870_2_alg».proof.Proof.IdealTailDefs
import proofs.«103882_j3006477107870_2_alg».proof.Proof.IdealSums
import proofs.«103882_j3006477107870_2_alg».proof.Proof.Spec
import proofs.«103882_j3006477107870_2_alg».proof.Proof.RefAlgebra
import Idealize.ShloMosaic.Lib.IdealHost
import Idealize.ShloMosaic.PureOps.Ideal.Laws

noncomputable section

namespace Cert.KernelIdeal.Whole

open Idealize.ShloMosaic Idealize.ShloMosaic.ValueIdx Cert.KernelIdeal Cert.Chamfer

/-- The spatial term of the two arrays of minimal squared distances: the two means of the clamped roots, added. -/
theorem spatialTerm_apply (p : FVec Ideal S8x4096x1 .f32) (q : FVec Ideal S8x1x4096 .f32) (i : S_.Idx) :
    spatialTerm p q i
      = Ideal.div (∑ b : Fin 8, ∑ n : Fin 4096, root (p (ix3 b n 0))) nPoints
        + Ideal.div (∑ b : Fin 8, ∑ m : Fin 4096, root (q (ix3 b 0 m))) nPoints := by
  unfold spatialTerm
  simp only [addf_apply, hostDivf_apply, hostReduceAdd_apply, constant_apply, Ideal.ofBits_zero_f32]
  rw [Ideal.hostReduceAdd_total (t := S_) _ (fun b => b.elim0), Ideal.hostReduceAdd_total (t := S_) _ (fun b => b.elim0),
    zero_add, zero_add, sum_rows, sum_cols]
  rfl

/-- The loss from the spatial term and the per-cloud mean cosines: the weighted sum of the spatial term and of one minus
    the mean over the clouds. -/
theorem lossTerm_apply (v : FVec Ideal S8x1x1 .f32) (s : FVec Ideal S_ .f32) (i : S_.Idx) :
    lossTerm v s i = wSpatial * s i + wFeature * (unit - Ideal.div (∑ b : Fin 8, v (ix3 b 0 0)) nClouds) := by
  unfold lossTerm
  simp only [addf_apply, mulf_apply, subf_apply, hostDivf_apply, hostReduceAdd_apply, constant_apply, Ideal.ofBits_zero_f32]
  rw [Ideal.hostReduceAdd_total (t := S_) _ (fun b => b.elim0), zero_add, sum_clouds]
  rfl

end Cert.KernelIdeal.Whole

end
-- ==== Proof.IdealLoss.lean ====
/-
  The kernel program's result. Following the folded buffer contents from the end back to the launch:
  the result buffer is the last host stretch's weighted sum of the spatial term and one minus the mean cosine;
  the mean cosine is over the cosine region's per-cloud means of the launched feature rows' cosines;
  the spatial term is the second host stretch's, of the distance region's two arrays of minimal squared distances
  between the launched clouds' points. That is the loss of Spec.lean at the four launched argument arrays — with no
  assumption on them: the kernel computes the loss in exactly the form Spec.lean states it.
-/
import proofs.«103882_j3006477107870_2_alg».proof.Proof.IdealEntry
import proofs.«103882_j3006477107870_2_alg».proof.Proof.IdealNearValue
import proofs.«103882_j3006477107870_2_alg».proof.Proof.IdealCosValue
import proofs.«103882_j3006477107870_2_alg».proof.Proof.IdealTailValue

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx
open Cert.Chamfer (loss spatial meanCosine toNearest fromNearest cloudOf featsOf)

variable (m : (ℓ : Loc nD τ sig) → Buf (Elt Ideal) ℓ) (ρ : Dev nD → PrngReg)

/-! ## The distance region's two arrays -/

theorem near_buf (c : Dev nD) : B2 m ρ c (Proc.devRef .tc main_v1_0) = Chamfer.nearArr (E1 m ρ) c :=
  (B2_arr m ρ c 2).trans (Chamfer.final_near (E1 m ρ) c)
theorem col_buf (c : Dev nD) : B2 m ρ c (Proc.devRef .tc main_v1_1) = Chamfer.colArr (E1 m ρ) c :=
  (B2_arr m ρ c 3).trans (Chamfer.final_col (E1 m ρ) c)

/-- For query `n` of cloud `b`: the squared distance to the nearest point of the second launched cloud. -/
theorem near_apply (c : Dev nD) (b : Fin 8) (n : Fin 4096) :
    Chamfer.nearArr (E1 m ρ) c (ix3 b n 0) = toNearest (cloudOf (arg0 m c)) (cloudOf (arg1 m c)) b n := by
  unfold Chamfer.nearArr toNearest
  exact iInf_congr fun k => entry_dist m ρ c b n k
/-- For key `k` of cloud `b`: the squared distance to the nearest point of the first launched cloud. -/
theorem col_apply (c : Dev nD) (b : Fin 8) (k : Fin 4096) :
    Chamfer.colArr (E1 m ρ) c (ix3 b 0 k) = fromNearest (cloudOf (arg0 m c)) (cloudOf (arg1 m c)) b k := by
  unfold Chamfer.colArr fromNearest
  exact iInf_congr fun n => entry_dist m ρ c b n k

/-! ## The second host stretch -/

theorem spatial_buf (c : Dev nD) :
    B3 m ρ c (Proc.devRef .tc main_v12) = spatialTerm (B2 m ρ c (Proc.devRef .tc main_v1_0)) (B2 m ρ c (Proc.devRef .tc main_v1_1)) := by
  dsimp only [B3, hostOps1]
  after_results
  rfl

theorem spatial_value (c : Dev nD) (i : S_.Idx) :
    B3 m ρ c (Proc.devRef .tc main_v12) i = spatial (cloudOf (arg0 m c)) (cloudOf (arg1 m c)) := by
  rw [spatial_buf, spatialTerm_apply, near_buf, col_buf]
  unfold spatial
  simp only [near_apply, col_apply]

/-! ## The cosine region's array -/

theorem entry_f (c : Dev nD) : E3 m ρ c main_arg2 = arg2 m c :=
  calc B3 m ρ c (Proc.devRef .tc main_arg2)
    _ = B2 m ρ c (Proc.devRef .tc main_arg2) := StableHlo.after_of_writes_sub hostOps1 _ hostOps1_writes (r := main_arg2) (by decide)
    _ = B1 m ρ c (Proc.devRef .tc main_arg2) := B2_of_ne m ρ c main_arg2 (by decide)
    _ = B0 m ρ c (Proc.devRef .tc main_arg2) := StableHlo.after_of_writes_sub hostOps0 _ hostOps0_writes (r := main_arg2) (by decide)
    _ = arg2 m c := rfl
theorem entry_g (c : Dev nD) : E3 m ρ c main_arg3 = arg3 m c :=
  calc B3 m ρ c (Proc.devRef .tc main_arg3)
    _ = B2 m ρ c (Proc.devRef .tc main_arg3) := StableHlo.after_of_writes_sub hostOps1 _ hostOps1_writes (r := main_arg3) (by decide)
    _ = B1 m ρ c (Proc.devRef .tc main_arg3) := B2_of_ne m ρ c main_arg3 (by decide)
    _ = B0 m ρ c (Proc.devRef .tc main_arg3) := StableHlo.after_of_writes_sub hostOps0 _ hostOps0_writes (r := main_arg3) (by decide)
    _ = arg3 m c := rfl

/-- The cosine region's output buffer after the region, as an extended-real array: one entry per cloud. -/
def cloudMeans (c : Dev nD) : S8x1x1.Idx → EReal := B4 m ρ c (Proc.devRef .tc main_v13)

theorem mean_buf (c : Dev nD) (b : Fin 8) :
    B4 m ρ c (Proc.devRef .tc main_v13) (ix3 b 0 0)
      = Ideal.div (∑ n : Fin 4096, Cert.Chamfer.cosine (featsOf (arg2 m c)) (featsOf (arg3 m c)) b n) Cert.Chamfer.nRows := by
  rw [(B4_arr m ρ c 2).trans (Cosine.final_mean (E3 m ρ) c), entry_f, entry_g]
  rfl

/-! ## The last host stretch, and the result -/

theorem loss_buf (c : Dev nD) :
    B5 m ρ c (Proc.devRef .tc main_v19) = lossTerm (B4 m ρ c (Proc.devRef .tc main_v13)) (B4 m ρ c (Proc.devRef .tc main_v12)) := by
  dsimp only [B5, hostOps2]
  after_results
  rfl

/-- THE RESULT BUFFER at the end: the loss of the four launched argument arrays. -/
theorem result_value (c : Dev nD) :
    B5 m ρ c (Proc.devRef .tc main_v19)
      = fun _ => loss (cloudOf (arg0 m c)) (cloudOf (arg1 m c)) (featsOf (arg2 m c)) (featsOf (arg3 m c)) := by
  funext i
  rw [loss_buf, lossTerm_apply, B4_of_ne m ρ c main_v12 (by decide), spatial_value]
  unfold loss meanCosine
  have hsum : (∑ b : Fin 8, cloudMeans m ρ c (ix3 b 0 0))
      = ∑ b : Fin 8, Ideal.div (∑ n : Fin 4096, Cert.Chamfer.cosine (featsOf (arg2 m c)) (featsOf (arg3 m c)) b n) Cert.Chamfer.nRows :=
    Finset.sum_congr rfl fun b _ => mean_buf m ρ c b
  exact congrArg (fun z => Cert.Chamfer.wSpatial * spatial (cloudOf (arg0 m c)) (cloudOf (arg1 m c))
    + Cert.Chamfer.wFeature * (Cert.Chamfer.unit - Ideal.div z Cert.Chamfer.nClouds)) hsum

/-- THE KERNEL'S RUN with its result named: every weakly fair execution ends, nothing faulting, the result buffer at the
    loss of the launched arrays and the four argument arrays as launched. -/
theorem run_loss : θ_run (defs (F := Ideal)) (onTc (τ := τ) (main (F := Ideal))) ⟨m, fun _ => 0, ρ⟩ (fun r => ∀ c : Dev nD,
      r.2.mem ((c.tc : Thread nD τ).loc main_v19)
        = (fun _ => loss (cloudOf (arg0 m c)) (cloudOf (arg1 m c)) (featsOf (arg2 m c)) (featsOf (arg3 m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v19 (by decide))).trans (result_value m ρ c),
     (h c _ (mem_uc main_arg0 (by decide))).trans (B5_arg0 m ρ c),
     (h c _ (mem_uc main_arg1 (by decide))).trans (B5_arg1 m ρ c),
     (h c _ (mem_uc main_arg2 (by decide))).trans (B5_arg2 m ρ c),
     (h c _ (mem_uc main_arg3 (by decide))).trans (B5_arg3 m ρ c)⟩) (run m ρ)

end Cert.KernelIdeal.Whole

end
-- ==== Proof.RefMin.lean ====
/-
  A minimum taken along one axis of an 8 × 4096 × 4096 array, folded from +∞, read at an index: it is the infimum of the
  array's entries along that axis. Along the last axis (for every cloud `b` and point `n`, over `m`) and along the middle
  axis (for every cloud `b` and point `m`, over `n`).
-/
import proofs.«103882_j3006477107870_2_alg».proof.Proof.RefAlgebra
import Idealize.ShloMosaic.Lib.ValueIdx
import Idealize.ShloMosaic.PureOps.Ideal.Laws

noncomputable section

namespace Cert.Chamfer

open Idealize.ShloMosaic Idealize.ShloMosaic.ValueIdx

/-- The index (b, n) with `k` put back on the last axis is (b, n, k). -/
theorem lift_last (h : (⟨3, ![8, 4096, 4096]⟩ : Shape).Reduces [2] (⟨2, ![8, 4096]⟩ : Shape)) (b : Fin 8) (n : Fin 4096)
    (k : Fin ((⟨3, ![8, 4096, 4096]⟩ : Shape).size 2)) : h.lift (ix2 b n) k = ix3 b n (⟨k.val, k.isLt⟩ : Fin 4096) := by
  funext c; apply Fin.ext
  fin_cases c <;> rfl

/-- The index (b, m) with `k` put back on the middle axis is (b, k, m). -/
theorem lift_mid (h : (⟨3, ![8, 4096, 4096]⟩ : Shape).Reduces [1] (⟨2, ![8, 4096]⟩ : Shape)) (b : Fin 8) (m : Fin 4096)
    (k : Fin ((⟨3, ![8, 4096, 4096]⟩ : Shape).size 1)) : h.lift (ix2 b m) k = ix3 b (⟨k.val, k.isLt⟩ : Fin 4096) m := by
  funext c; apply Fin.ext
  fin_cases c <;> rfl

/-- The minimum along the last axis, from +∞, at (b, n): the infimum over `m` of the entries (b, n, m). -/
theorem min_last (x : FVec Ideal ⟨3, ![8, 4096, 4096]⟩ .f32) (init : FVec Ideal ⟨0, ![]⟩ .f32)
    (h' : (⟨3, ![8, 4096, 4096]⟩ : Shape).ReducesTo [2] (⟨2, ![8, 4096]⟩ : Shape)) (hu : 0 < (⟨0, ![]⟩ : Shape).numel)
    (hinit : init (Shape.Idx.first hu) = (⊤ : EReal)) (b : Fin 8) (n : Fin 4096) :
    Host.reduce FloatOps.minimumf x init h' hu (ix2 b n) = ⨅ m : Fin 4096, x (ix3 b n m) := by
  have h : (⟨3, ![8, 4096, 4096]⟩ : Shape).Reduces [2] (⟨2, ![8, 4096]⟩ : Shape) := by decide
  rw [Host.reduce_eq_fold_single FloatOps.minimumf x init h' h hu, hinit]
  have hf : (x ∘ h.lift (ix2 b n)) = fun k => x (ix3 b n (⟨k.val, k.isLt⟩ : Fin 4096)) :=
    funext fun k => congrArg x (lift_last h b n k)
  rw [hf]
  exact fold_min_top (ι := Fin 4096) (fun m => x (ix3 b n m))

/-- The minimum along the middle axis, from +∞, at (b, m): the infimum over `n` of the entries (b, n, m). -/
theorem min_mid (x : FVec Ideal ⟨3, ![8, 4096, 4096]⟩ .f32) (init : FVec Ideal ⟨0, ![]⟩ .f32)
    (h' : (⟨3, ![8, 4096, 4096]⟩ : Shape).ReducesTo [1] (⟨2, ![8, 4096]⟩ : Shape)) (hu : 0 < (⟨0, ![]⟩ : Shape).numel)
    (hinit : init (Shape.Idx.first hu) = (⊤ : EReal)) (b : Fin 8) (m : Fin 4096) :
    Host.reduce FloatOps.minimumf x init h' hu (ix2 b m) = ⨅ n : Fin 4096, x (ix3 b n m) := by
  have h : (⟨3, ![8, 4096, 4096]⟩ : Shape).Reduces [1] (⟨2, ![8, 4096]⟩ : Shape) := by decide
  rw [Host.reduce_eq_fold_single FloatOps.minimumf x init h' h hu, hinit]
  have hf : (x ∘ h.lift (ix2 b m)) = fun k => x (ix3 b (⟨k.val, k.isLt⟩ : Fin 4096) m) :=
    funext fun k => congrArg x (lift_mid h b m k)
  rw [hf]
  exact fold_min_top (ι := Fin 4096) (fun n => x (ix3 b n m))

end Cert.Chamfer

end
-- ==== Proof.RefDist.lean ====
/-
  The reference's distance array read at an index. For every cloud `b` and points `n`, `m`, the reference forms the two
  squared lengths `Σ_d x_d²`, `Σ_d y_d²` and the inner product `Σ_d x_d y_d`, combines them as `(|x|² + |y|²) - 2 ⟨x, y⟩`,
  clamps at `ε` and takes the root. With real coordinates that combination is the squared distance `Σ_d (x_d - y_d)²`,
  so the entry is the clamped root of the squared distance.
-/
import proofs.«103882_j3006477107870_2_alg».proof.Proof.Arrays
import proofs.«103882_j3006477107870_2_alg».proof.Proof.RefAlgebra
import proofs.«103882_j3006477107870_2_alg».proof.Proof.Gen.ReferenceIdeal.Read

noncomputable section

namespace Cert.Chamfer.Ref

open Cert.ReferenceIdeal Cert.ReferenceIdeal.Gen Cert.ReferenceIdeal.Read Idealize.ShloMosaic Idealize.ShloMosaic.ValueIdx

/-- The distance array at (b, n, m) is the clamped root of the squared distance between point `n` of the first cloud and
    point `m` of the second. The four index equations say which coordinates each broadcast, transpose and contraction
    reads: the squared length of `x` at (b, n), that of `y` at (b, m), the products at (b, n, d) and (b, m, d). -/
theorem dist_apply (a0 a1 : FVec Ideal S8x4096x3 .f32) (h0 : Real' a0) (h1 : Real' a1) (b : Fin 8) (n m : Fin 4096) :
    val_main_v16 (F := Ideal) a0 a1 (ix3 b n m) = root (sqDist (cloudOf a0) (cloudOf a1) b n m) := by
  have e1 : ∀ k : Fin 3, idx_main_v1 (idx_main_v2 (idx_main_v8 (ix3 b n m))) k = ix3 b n k := fun k =>
    funext fun a => Fin.ext (by match a with | ⟨0, _⟩ => rfl | ⟨1, _⟩ => rfl | ⟨2, _⟩ => rfl)
  have e2 : ∀ k : Fin 3, idx_main_v4 (idx_main_v5 (idx_main_v7 (idx_main_v9 (ix3 b n m)))) k = ix3 b m k := fun k =>
    funext fun a => Fin.ext (by match a with | ⟨0, _⟩ => rfl | ⟨1, _⟩ => rfl | ⟨2, _⟩ => rfl)
  have e3 : ∀ k : Fin 3, lidx_main_v6 (ix3 b n m) k = ix3 b n k := fun k =>
    funext fun a => Fin.ext (by match a with | ⟨0, _⟩ => rfl | ⟨1, _⟩ => rfl | ⟨2, _⟩ => rfl)
  have e4 : ∀ k : Fin 3, ridx_main_v6 (ix3 b n m) k = ix3 b m k := fun k =>
    funext fun a => Fin.ext (by match a with | ⟨0, _⟩ => rfl | ⟨1, _⟩ => rfl | ⟨2, _⟩ => rfl)
  rw [val_main_v16_apply, val_main_v15_apply, val_main_v14_apply, val_main_cst_2_apply, val_main_v13_apply,
    val_main_v12_apply, val_main_v11_apply, val_main_cst_1_apply, val_main_v6_apply, val_main_v10_apply,
    val_main_v8_apply, val_main_v2_apply, val_main_v1_apply, val_main_cst_apply, val_main_v9_apply, val_main_v7_apply,
    val_main_v5_apply, val_main_v4_apply, val_main_cst_0_apply]
  simp only [val_main_v0_apply, val_main_v3_apply, e1, e2, e3, e4, Ideal.mulf_def, Ideal.addf_def, Ideal.subf_def,
    Ideal.maximumf_def, Ideal.hostUnary_sqrt_def, Ideal.ofBits_def, Ideal.ofBits_zero_f32, two_word]
  rw [sqDist_expand (fun k => a0 (ix3 b n k)) (fun k => a1 (ix3 b m k)) (fun k => h0 _) (fun k => h1 _)]
  rfl

end Cert.Chamfer.Ref

end
-- ==== Proof.RefCos.lean ====
/-
  The reference's cosine array read at an index. For every cloud `b` and row `n`, each of the two feature rows is divided,
  entry by entry, by its Euclidean norm `√(Σ_c f_c²)` clamped below at `ε`, and the 32 products of the quotients are
  added: the cosine of the two rows.
-/
import proofs.«103882_j3006477107870_2_alg».proof.Proof.Arrays
import proofs.«103882_j3006477107870_2_alg».proof.Proof.Gen.ReferenceIdeal.Read

noncomputable section

namespace Cert.Chamfer.Ref

open Cert.ReferenceIdeal Cert.ReferenceIdeal.Gen Cert.ReferenceIdeal.Read Idealize.ShloMosaic Idealize.ShloMosaic.ValueIdx

/-- The cosine array at (b, n) is the cosine of row `n` of cloud `b` of the two feature arrays. The index equations say
    that the sum runs over the features (b, n, c) and that the norm broadcast to (b, n, c) is the one of row (b, n). -/
theorem cos_apply (a2 a3 : FVec Ideal S8x4096x32 .f32) (b : Fin 8) (n : Fin 4096) :
    val_main_v35 (F := Ideal) a2 a3 (ix2 b n) = cosine (featsOf a2) (featsOf a3) b n := by
  have e0 : ∀ k : Fin 32, idx_main_v35 (ix2 b n) k = ix3 b n k := fun k =>
    funext fun a => Fin.ext (by match a with | ⟨0, _⟩ => rfl | ⟨1, _⟩ => rfl | ⟨2, _⟩ => rfl)
  have e1 : ∀ k k' : Fin 32, idx_main_call0_v1 (idx_main_call0_v2 (idx_main_v27 (ix3 b n k))) k' = ix3 b n k' := fun k k' =>
    funext fun a => Fin.ext (by match a with | ⟨0, _⟩ => rfl | ⟨1, _⟩ => rfl | ⟨2, _⟩ => rfl)
  have e2 : ∀ k k' : Fin 32, idx_main_call1_v1 (idx_main_call1_v2 (idx_main_v32 (ix3 b n k))) k' = ix3 b n k' := fun k k' =>
    funext fun a => Fin.ext (by match a with | ⟨0, _⟩ => rfl | ⟨1, _⟩ => rfl | ⟨2, _⟩ => rfl)
  rw [val_main_v35_apply, val_main_cst_11_apply]
  simp only [e0, val_main_v34_apply, val_main_v28_apply, val_main_v33_apply, val_main_v27_apply, val_main_v32_apply,
    val_main_v26_apply, val_main_v31_apply, val_main_v25_apply, val_main_v30_apply, val_main_cst_9_apply,
    val_main_cst_10_apply, val_main_v24_apply, val_main_v29_apply, val_main_call0_v2_apply, val_main_call1_v2_apply,
    val_main_call0_v1_apply, val_main_call1_v1_apply, val_main_call0_cst_apply, val_main_call1_cst_apply,
    val_main_call0_v0_apply, val_main_call1_v0_apply, e1, e2, Ideal.mulf_def, Ideal.hostDivf_def, Ideal.maximumf_def,
    Ideal.hostUnary_sqrt_def, Ideal.ofBits_def, Ideal.ofBits_zero_f32, zero_add]
  rfl

end Cert.Chamfer.Ref

end
-- ==== Proof.RefFinite.lean ====
/-
  Finiteness of the inputs, read back from the precondition: the precondition is the conjunction, over the four argument
  arrays, of "every entry has absolute value below +∞"; an extended real whose absolute value is below +∞ is a real
  number, so every entry of every argument array is a real number.
-/
import proofs.«103882_j3006477107870_2_alg».proof.Proof.Arrays
import proofs.«103882_j3006477107870_2_alg».proof.Pre_finite_inputs
import proofs.«103882_j3006477107870_2_alg».proof.Proof.Gen.Pre_finite_inputs
import Idealize.ShloMosaic.Lib.ReduceAll

noncomputable section

namespace Cert.Chamfer.Ref

open Idealize.ShloMosaic Idealize.ShloMosaic.ValueIdx

/-- The single-precision word with all exponent bits set and no fraction bit denotes +∞. -/
theorem inf_word : Ideal.ofBits .f32 0x7F800000#32 = (⊤ : EReal) := by
  simp [Ideal.ofBits, Ideal.ieee]

/-- An extended real whose absolute value `max x (-x)` is strictly below +∞ is a real number: +∞ is its own absolute
    value and -∞ has absolute value +∞. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- The scalar shape has one index. -/
instance : Subsingleton Cert.Pre_finite_inputs.S_.Idx := ⟨fun a b => funext fun d => d.elim0⟩

/-- One conjunct of the precondition: if the conjunction over all entries of "|entry| < +∞" holds, the array holds real
    numbers only. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf a)
            (broadcastInDim s ![] hb (constant (F := Ideal) Cert.Pre_finite_inputs.S_ .f32 0x7F800000#32)))
          init hr hu ix0 = 1#1) : Real' a := fun i =>
  real_of_abs_lt (a i) (Host.reduce_andi_all _ init hr hu ix0 e i)

/-- The precondition gives: every entry of each of the four argument arrays is a real number. -/
theorem real_of_pre [Cert.Pre_finite_inputs.Facts]
    (a0 a1 : FVec Ideal Cert.Pre_finite_inputs.S8x4096x3 .f32) (a2 a3 : FVec Ideal Cert.Pre_finite_inputs.S8x4096x32 .f32)
    (h : Cert.Pre_finite_inputs.fn (F := Ideal) a0 a1 a2 a3 = (fun _ => 1#1)) :
    Real' a0 ∧ Real' a1 ∧ Real' a2 ∧ Real' a3 := by
  have h0 := congrFun h ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all a0 _ _ _ _ h0', real_of_all a1 _ _ _ _ h1, real_of_all a2 _ _ _ _ h2, real_of_all a3 _ _ _ _ h3⟩

end Cert.Chamfer.Ref

end
-- ==== Proof.RefLoss.lean ====
/-
  The reference's run, read one operation at a time: the generated reading of its final result, and that this result is
  the loss of Spec.lean at the argument arrays, when those hold real numbers only.

  The reference takes, for every point, the minimum over the other cloud of the clamped roots of the distances; the
  clamped root is nondecreasing, so that minimum is the clamped root of the least squared distance. It adds the minima
  over all 8 · 4096 points and divides by 32768, in both directions: the spatial term. It adds the cosines of all
  8 · 4096 rows and divides by 32768; with real features that is the mean over the clouds of each cloud's mean cosine.
-/
import proofs.«103882_j3006477107870_2_alg».proof.Proof.Arrays
import proofs.«103882_j3006477107870_2_alg».proof.Proof.RefAlgebra
import proofs.«103882_j3006477107870_2_alg».proof.Proof.RefMin
import proofs.«103882_j3006477107870_2_alg».proof.Proof.RefDist
import proofs.«103882_j3006477107870_2_alg».proof.Proof.RefCos
import proofs.«103882_j3006477107870_2_alg».proof.Proof.RefFinite
import proofs.«103882_j3006477107870_2_alg».proof.Proof.Gen.ReferenceIdeal.Read

noncomputable section

namespace Cert.Chamfer.Ref

open Cert.ReferenceIdeal Cert.ReferenceIdeal.Gen Cert.ReferenceIdeal.Read Idealize.ShloMosaic Idealize.ShloMosaic.ValueIdx
  Idealize.ShloMosaic.TcCoe Idealize.SL.Sem

/-! ## The two arrays of nearest distances -/

/-- The minimum over `m` of the distances from point `n`: the clamped root of the least squared distance. -/
theorem toNearest_apply (a0 a1 : FVec Ideal S8x4096x3 .f32) (h0 : Real' a0) (h1 : Real' a1) (b : Fin 8) (n : Fin 4096) :
    val_main_v17 (F := Ideal) a0 a1 (ix2 b n) = root (toNearest (cloudOf a0) (cloudOf a1) b n) := by
  unfold val_main_v17
  refine (min_last _ _ _ _ ?_ b n).trans ?_
  · rw [val_main_cst_3_apply]; exact inf_word
  · simp only [dist_apply a0 a1 h0 h1]
    exact root_iInf _

/-- The minimum over `n` of the distances to point `m`: the clamped root of the least squared distance. -/
theorem fromNearest_apply (a0 a1 : FVec Ideal S8x4096x3 .f32) (h0 : Real' a0) (h1 : Real' a1) (b : Fin 8) (m : Fin 4096) :
    val_main_v18 (F := Ideal) a0 a1 (ix2 b m) = root (fromNearest (cloudOf a0) (cloudOf a1) b m) := by
  unfold val_main_v18
  refine (min_mid _ _ _ _ ?_ b m).trans ?_
  · rw [val_main_cst_4_apply]; exact inf_word
  · simp only [dist_apply a0 a1 h0 h1]
    exact root_iInf _

/-! ## The two terms -/

/-- The reference's spatial term is the specification's: each sum over the pairs (cloud, point) is the iterated sum. -/
theorem spatial_apply (a0 a1 : FVec Ideal S8x4096x3 .f32) (h0 : Real' a0) (h1 : Real' a1) (i : S_.Idx) :
    val_main_v23 (F := Ideal) a0 a1 i = spatial (cloudOf a0) (cloudOf a1) := by
  rw [val_main_v23_apply, val_main_v20_apply, val_main_v22_apply, val_main_v19_apply, val_main_v21_apply,
    val_main_cst_5_apply, val_main_cst_7_apply, val_main_cst_6_apply, val_main_cst_8_apply, sum_idx2, sum_idx2]
  simp only [toNearest_apply a0 a1 h0 h1, fromNearest_apply a0 a1 h0 h1, Ideal.addf_def, Ideal.hostDivf_def,
    Ideal.ofBits_def, Ideal.ofBits_zero_f32, zero_add]
  rfl

/-- The reference's mean cosine over all rows is the specification's mean over the clouds of each cloud's mean: the
    cosines are real numbers. -/
theorem meanCosine_apply (a2 a3 : FVec Ideal S8x4096x32 .f32) (h2 : Real' a2) (h3 : Real' a3) (i : S_.Idx) :
    val_main_v37 (F := Ideal) a2 a3 i = meanCosine (featsOf a2) (featsOf a3) := by
  rw [val_main_v37_apply, val_main_v36_apply, val_main_cst_12_apply, val_main_cst_13_apply, sum_idx2]
  simp only [cos_apply, Ideal.hostDivf_def, Ideal.ofBits_def, Ideal.ofBits_zero_f32, zero_add]
  exact mean_of_means _ (cosine_real _ _ (fun b n c => h2 _) (fun b n c => h3 _))

/-! ## The result -/

/-- The reference's result, as the generated reading states it, is the loss at the argument arrays. -/
theorem result_eq (a0 a1 : FVec Ideal S8x4096x3 .f32) (a2 a3 : FVec Ideal S8x4096x32 .f32) (h0 : Real' a0) (h1 : Real' a1)
    (h2 : Real' a2) (h3 : Real' a3) :
    val_main_v41 (F := Ideal) a0 a1 a2 a3 = fun _ => loss (cloudOf a0) (cloudOf a1) (featsOf a2) (featsOf a3) := by
  funext i
  rw [val_main_v41_apply, val_main_v39_apply, val_main_v40_apply, val_main_v38_apply, val_main_cst_15_apply,
    val_main_cst_16_apply, val_main_cst_14_apply, spatial_apply a0 a1 h0 h1, meanCosine_apply a2 a3 h2 h3]
  rfl

/-- The reference runs to the end, leaves its arguments unchanged, and its result is the loss at the argument arrays,
    when those hold real numbers only. -/
theorem run_loss (m' : (ℓ : Loc Cert.ReferenceIdeal.nD Cert.ReferenceIdeal.τ Cert.ReferenceIdeal.sig) → Buf (Elt Ideal) ℓ)
    (ρ' : Dev Cert.ReferenceIdeal.nD → PrngReg)
    (hreal : ∀ c : Dev Cert.ReferenceIdeal.nD,
      Real' (S := S8x4096x3) (m' ((c.tc : Thread Cert.ReferenceIdeal.nD Cert.ReferenceIdeal.τ).loc Cert.ReferenceIdeal.main_arg0))
      ∧ Real' (S := S8x4096x3) (m' ((c.tc : Thread Cert.ReferenceIdeal.nD Cert.ReferenceIdeal.τ).loc Cert.ReferenceIdeal.main_arg1))
      ∧ Real' (S := S8x4096x32) (m' ((c.tc : Thread Cert.ReferenceIdeal.nD Cert.ReferenceIdeal.τ).loc Cert.ReferenceIdeal.main_arg2))
      ∧ Real' (S := S8x4096x32) (m' ((c.tc : Thread Cert.ReferenceIdeal.nD Cert.ReferenceIdeal.τ).loc Cert.ReferenceIdeal.main_arg3))) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v41)
        = (fun _ => loss
            (cloudOf (m' ((c.tc : Thread Cert.ReferenceIdeal.nD Cert.ReferenceIdeal.τ).loc Cert.ReferenceIdeal.main_arg0)))
            (cloudOf (m' ((c.tc : Thread Cert.ReferenceIdeal.nD Cert.ReferenceIdeal.τ).loc Cert.ReferenceIdeal.main_arg1)))
            (featsOf (m' ((c.tc : Thread Cert.ReferenceIdeal.nD Cert.ReferenceIdeal.τ).loc Cert.ReferenceIdeal.main_arg2)))
            (featsOf (m' ((c.tc : Thread Cert.ReferenceIdeal.nD Cert.ReferenceIdeal.τ).loc Cert.ReferenceIdeal.main_arg3))))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans ((val_main_v41_eq _ _ _ _).trans
        (result_eq _ _ _ _ (hreal c).1 (hreal c).2.1 (hreal c).2.2.1 (hreal c).2.2.2)), (h c).2⟩)
    (Cert.ReferenceIdeal.Value.run (F := Ideal) m' ρ')

end Cert.Chamfer.Ref

end
-- ==== Proof.lean ====
/-
  The five claims of this certificate.

  The kernel program computes, in two kernel regions and three stretches of host operations, a loss of two batches of
  point clouds and two batches of feature rows: the mean clamped root of nearest squared distances in both directions,
  and one minus the mean cosine of corresponding feature rows, weighted and added (Proof/Spec.lean). The reference
  computes the same quantity by other means: squared distances through the expanded square, roots before the minima,
  one mean over all rows.

  * The three programs run to the end, nothing faulting, and leave their argument arrays unchanged. For the kernel
    program this is one theorem at any float instance (Proof/IdealEnds.lean and its word-level twin Proof/BitsEnds.lean),
    read off the run of its five parts; for the reference it is its run with the result dropped.
  * The ideal pass rewrote nothing in the kernel program, so there is nothing to preserve.
  * At the ideal values both programs end with the loss of Proof/Spec.lean at the argument arrays: the kernel program
    for any arrays (Proof/IdealLoss.lean), the reference when the arrays hold real numbers only (Proof/RefLoss.lean) —
    the expanded square is the sum of squared differences, and the clamped root commutes with a minimum, only then;
    the precondition says exactly that (Proof/RefFinite.lean).
-/
import proofs.«103882_j3006477107870_2_alg».proof.Defs
import proofs.«103882_j3006477107870_2_alg».proof.Proof.Gen.Kernel
import proofs.«103882_j3006477107870_2_alg».proof.Proof.Gen.KernelIdeal
import proofs.«103882_j3006477107870_2_alg».proof.Proof.Gen.ReferenceIdeal
import proofs.«103882_j3006477107870_2_alg».proof.Proof.Gen.Pre_finite_inputs
import proofs.«103882_j3006477107870_2_alg».proof.Proof.BitsEnds
import proofs.«103882_j3006477107870_2_alg».proof.Proof.IdealLoss
import proofs.«103882_j3006477107870_2_alg».proof.Proof.RefLoss
import proofs.«103882_j3006477107870_2_alg».proof.Proof.RefFinite
import Idealize.ShloMosaic.Adequacy
import Idealize.ShloMosaic.Init

noncomputable section

namespace Cert.Proof

open Idealize.ShloMosaic Idealize.ShloMosaic.TcCoe Idealize.SL.Sem
open Cert.Chamfer (loss cloudOf featsOf Real')

theorem frame_kernel : Cert.frame_Kernel := fun m ρ _ => Cert.Kernel.Whole.frame m ρ

theorem frame_kernelIdeal : Cert.frame_KernelIdeal := fun m ρ _ => Cert.KernelIdeal.Whole.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the loss of the kernel program's launched arrays: the kernel program by its run, the reference
    by its run from arrays that agree with them and, by the precondition, hold real numbers only. -/
theorem algebraic : Cert.algebraic_KernelIdeal_ReferenceIdeal := by
  intro m ρ m' ρ' hpre hagree
  have hreal := fun c : Dev Cert.KernelIdeal.nD => Cert.Chamfer.Ref.real_of_pre _ _ _ _ (hpre c)
  refine ⟨fun c _ => loss (cloudOf (Cert.KernelIdeal.Whole.arg0 m c)) (cloudOf (Cert.KernelIdeal.Whole.arg1 m c))
      (featsOf (Cert.KernelIdeal.Whole.arg2 m c)) (featsOf (Cert.KernelIdeal.Whole.arg3 m c)),
    Cert.KernelIdeal.Whole.run_loss m ρ, ?_⟩
  refine (θ_run Cert.ReferenceIdeal.defs _ _).mono (fun r h c => ⟨(h c).1.trans ?_, (h c).2⟩)
    (Cert.Chamfer.Ref.run_loss m' ρ' fun c => by
      rw [(hagree c).1, (hagree c).2.1, (hagree c).2.2.1, (hagree c).2.2.2]
      exact hreal c)
  rw [(hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
